-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096 : Shape := ⟨2, ![32, 4096]⟩
abbrev S_ : Shape := ⟨0, ![]⟩

class Facts : Prop where
  bcast_S_S32x4096 : S_.BroadcastsInDim S32x4096 (![] : Fin 0 → Fin S32x4096.rank)
  reducesTo_S32x4096_S_d0_1 : S32x4096.ReducesTo [0, 1] S_
  h_S_ : 0 < S_.numel

variable [Facts]

def fn {F : FTy → Type} [FloatOps F] (main_arg0 : FVec F S32x4096 .f32) (main_arg1 : FVec F S32x4096 .f32) : IVec S_ 1 :=
  let main_v0 : FVec F S32x4096 .f32 := Host.absf main_arg0
  let main_cst : FVec F S_ .f32 := constant S_ .f32 0x7F800000#32
  let main_v1 : FVec F S32x4096 .f32 := broadcastInDim S32x4096 ![] bcast_S_S32x4096 main_cst
  let main_v2 : IVec S32x4096 1 := cmpf .olt main_v0 main_v1
  let main_c : IVec S_ 1 := constantI S_ 1 1#1
  let main_v3 : IVec S_ 1 := (fun x v => Host.reduce IntOp.andi x v reducesTo_S32x4096_S_d0_1 h_S_) main_v2 main_c
  let main_v4 : FVec F S32x4096 .f32 := Host.absf main_arg1
  let main_cst_0 : FVec F S_ .f32 := constant S_ .f32 0x7F800000#32
  let main_v5 : FVec F S32x4096 .f32 := broadcastInDim S32x4096 ![] bcast_S_S32x4096 main_cst_0
  let main_v6 : IVec S32x4096 1 := cmpf .olt main_v4 main_v5
  let main_c_1 : IVec S_ 1 := constantI S_ 1 1#1
  let main_v7 : IVec S_ 1 := (fun x v => Host.reduce IntOp.andi x v reducesTo_S32x4096_S_d0_1 h_S_) main_v6 main_c_1
  let main_v8 : IVec S_ 1 := andi main_v3 main_v7
  main_v8
-- ==== Kernel.lean ====
abbrev S32x4096 : Shape := ⟨2, ![32, 4096]⟩
abbrev S32x2x2048 : Shape := ⟨3, ![32, 2, 2048]⟩
abbrev S32x1x2048 : Shape := ⟨3, ![32, 1, 2048]⟩
abbrev S32x2048 : Shape := ⟨2, ![32, 2048]⟩
abbrev S32x2048x1 : Shape := ⟨3, ![32, 2048, 1]⟩
abbrev S1x2048x1 : Shape := ⟨3, ![1, 2048, 1]⟩
abbrev S1x1x512 : Shape := ⟨3, ![1, 1, 512]⟩
abbrev S2048x1 : Shape := ⟨2, ![2048, 1]⟩
abbrev S1x512 : Shape := ⟨2, ![1, 512]⟩
abbrev S2048x512 : Shape := ⟨2, ![2048, 512]⟩
abbrev S2048 : Shape := ⟨1, ![2048]⟩
abbrev S512 : Shape := ⟨1, ![512]⟩
abbrev S_ : Shape := ⟨0, ![]⟩
abbrev S32 : Shape := ⟨1, ![32]⟩

abbrev nBuf : Space → Nat
  | .hbm => 40
  | .vmem => 12
  | .smem => 0
  | _ => 0

abbrev bufTy : (tb : Table) → Fin (tcTables nBuf tb) → BufTy
  | .hbm, ⟨0, _⟩ => ⟨S32x4096, .f32⟩
  | .hbm, ⟨1, _⟩ => ⟨S32x4096, .f32⟩
  | .hbm, ⟨2, _⟩ => ⟨S32x2x2048, .f32⟩
  | .hbm, ⟨3, _⟩ => ⟨S32x1x2048, .f32⟩
  | .hbm, ⟨4, _⟩ => ⟨S32x2048, .f32⟩
  | .hbm, ⟨5, _⟩ => ⟨S32x1x2048, .f32⟩
  | .hbm, ⟨6, _⟩ => ⟨S32x2048, .f32⟩
  | .hbm, ⟨7, _⟩ => ⟨S32x2x2048, .f32⟩
  | .hbm, ⟨8, _⟩ => ⟨S32x1x2048, .f32⟩
  | .hbm, ⟨9, _⟩ => ⟨S32x2048, .f32⟩
  | .hbm, ⟨10, _⟩ => ⟨S32x1x2048, .f32⟩
  | .hbm, ⟨11, _⟩ => ⟨S32x2048, .f32⟩
  | .hbm, ⟨12, _⟩ => ⟨S32x2048x1, .f32⟩
  | .hbm, ⟨13, _⟩ => ⟨S32x2048x1, .f32⟩
  | .hbm, ⟨14, _⟩ => ⟨S32x1x2048, .f32⟩
  | .hbm, ⟨15, _⟩ => ⟨S32x1x2048, .f32⟩
  | .hbm, ⟨16, _⟩ => ⟨S32x2048x1, .f32⟩
  | .hbm, ⟨17, _⟩ => ⟨S32x1x2048, .f32⟩
  | .hbm, ⟨18, _⟩ => ⟨S32x2048, .f32⟩
  | .hbm, ⟨19, _⟩ => ⟨S32x2048, .f32⟩
  | .hbm, ⟨20, _⟩ => ⟨S32x2048, .f32⟩
  | .hbm, ⟨21, _⟩ => ⟨S32x2048, .f32⟩
  | .hbm, ⟨22, _⟩ => ⟨S_, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .local _ .vmem, ⟨0, _⟩ => ⟨S1x2048x1, .f32⟩
  | .local _ .vmem, ⟨1, _⟩ => ⟨S1x2048x1, .f32⟩
  | .local _ .vmem, ⟨2, _⟩ => ⟨S1x2048x1, .f32⟩
  | .local _ .vmem, ⟨3, _⟩ => ⟨S1x2048x1, .f32⟩
  | .local _ .vmem, ⟨4, _⟩ => ⟨S1x1x512, .f32⟩
  | .local _ .vmem, ⟨5, _⟩ => ⟨S1x1x512, .f32⟩
  | .local _ .vmem, ⟨6, _⟩ => ⟨S1x1x512, .f32⟩
  | .local _ .vmem, ⟨7, _⟩ => ⟨S1x1x512, .f32⟩
  | .local _ .vmem, ⟨8, _⟩ => ⟨S1x2048x1, .f32⟩
  | .local _ .vmem, ⟨9, _⟩ => ⟨S1x2048x1, .f32⟩
  | .local _ .vmem, ⟨10, _⟩ => ⟨S1x1x512, .f32⟩
  | .local _ .vmem, ⟨11, _⟩ => ⟨S1x1x512, .f32⟩
  | _, _ => ⟨S32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14_0 : Ref sig .tc := ⟨.hbm, 16, rfl⟩
abbrev main_v14_1 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst : Ref sig .tc := ⟨.hbm, 22, rfl⟩
abbrev main_v19 : Ref sig .tc := ⟨.hbm, 23, rfl⟩
abbrev main_cst_0 : Ref sig .tc := ⟨.hbm, 24, rfl⟩
abbrev main_v20 : Ref sig .tc := ⟨.hbm, 25, rfl⟩
abbrev main_v21 : Ref sig .tc := ⟨.hbm, 26, rfl⟩
abbrev main_cst_1 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_cst_5 : Ref sig .tc := ⟨.hbm, 38, rfl⟩
abbrev main_v29 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 4], ![false, false]⟩

def k0_cond1 (i : grid0.Coords) : BitVec 1 :=
  let arg1 : BitVec 32 := BitVec.ofNat 32 (i 1).val
  let c0_i32 : BitVec 32 := 0#32
  let v24 : BitVec 1 := Scalar.cmpi .eq arg1 c0_i32
  let v25 : BitVec 32 := Scalar.extui v24
  let c0_i32_15 : BitVec 32 := 0#32
  let v26 : BitVec 1 := Scalar.cmpi .ne v25 c0_i32_15
  v26

def k0_cond2 (i : grid0.Coords) : BitVec 1 :=
  let arg1 : BitVec 32 := BitVec.ofNat 32 (i 1).val
  let c0_i32_16 : BitVec 32 := 0#32
  let v27 : BitVec 1 := Scalar.cmpi .ne arg1 c0_i32_16
  let v28 : BitVec 32 := Scalar.extui v27
  let c0_i32_17 : BitVec 32 := 0#32
  let v29 : BitVec 1 := Scalar.cmpi .ne v28 c0_i32_17
  v29

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S32x4096_S32x2x2048 : S32x4096.ShapeCasts S32x2x2048
  slices_S32x2x2048_S32x1x2048_0_0_0 : S32x2x2048.Slices ![0, 0, 0] S32x1x2048
  shapeCasts_S32x1x2048_S32x2048 : S32x1x2048.ShapeCasts S32x2048
  slices_S32x2x2048_S32x1x2048_0_1_0 : S32x2x2048.Slices ![0, 1, 0] S32x1x2048
  bcast_S32x2048_S32x2048x1_0_1 : S32x2048.BroadcastsInDim S32x2048x1 (![0, 1] : Fin 2 → Fin S32x2048x1.rank)
  bcast_S32x2048_S32x1x2048_0_2 : S32x2048.BroadcastsInDim S32x1x2048 (![0, 2] : Fin 2 → Fin S32x1x2048.rank)
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048x1 : S1x2048x1.ShapeCasts S2048x1
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S2048x1_S2048x512 : S2048x1.Broadcasts S2048x512
  broadcasts_S1x512_S2048x512 : S1x512.Broadcasts S2048x512
  reduces_S2048x512_S2048 : S2048x512.Reduces [1] S2048
  shapeCasts_S2048_S2048x1 : S2048.ShapeCasts S2048x1
  reduces_S2048x512_S512 : S2048x512.Reduces [0] S512
  shapeCasts_S512_S1x512 : S512.ShapeCasts S1x512
  shapeCasts_S1x512_S1x1x512 : S1x512.ShapeCasts S1x1x512
  shapeCasts_S2048x1_S1x2048x1 : S2048x1.ShapeCasts S1x2048x1
  shapeCasts_S32x2048x1_S32x2048 : S32x2048x1.ShapeCasts S32x2048
  reducesTo_S32x2048_S32_d1 : S32x2048.ReducesTo [1] S32
  h_S_ : 0 < S_.numel
  bcast_S_S32 : S_.BroadcastsInDim S32 (![] : Fin 0 → Fin S32.rank)
  reducesTo_S32_S_d0 : S32.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1.size a ≤ S32x2048x1.size a
  hwx0_0 : ∀ i : grid0.Coords, EltTy.bits .f32 = 32 ∨ (Rect.block (s := S32x2048x1) S1x2048x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1.size a ≤ S32x2048x1.size a
  hwx0_1 : ∀ i : grid0.Coords, EltTy.bits .f32 = 32 ∨ (Rect.block (s := S32x2048x1) S1x2048x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S32x1x2048.size a
  hwx0_2 : ∀ i : grid0.Coords, EltTy.bits .f32 = 32 ∨ (Rect.block (s := S32x1x2048) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512.size a ≤ S32x1x2048.size a
  hwx0_3 : ∀ i : grid0.Coords, EltTy.bits .f32 = 32 ∨ (Rect.block (s := S32x1x2048) S1x1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x1.size a ≤ S32x2048x1.size a
  hwx0_4 : ∀ i : grid0.Coords, EltTy.bits .f32 = 32 ∨ (Rect.block (s := S32x2048x1) S1x2048x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512.size a ≤ S32x1x2048.size a
  hwx0_5 : ∀ i : grid0.Coords, EltTy.bits .f32 = 32 ∨ (Rect.block (s := S32x1x2048) S1x1x512.size (cc0_transform_5 i) (hinb0_5 i)).WholeWords (EltTy.packing .f32)

variable [Facts₀]

abbrev win0_0 : Pipeline.Window sig grid0 :=
  Pipeline.Window.ofSpec (Memref.whole main_v10) S1x2048x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1x2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14_0) S1x2048x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v14_1) S1x1x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond1 i == 1#1) && !(k0_cond2 i == 1#1) | 5 => fun _ => false | ⟨_ + 6, h⟩ => absurd h (Nat.not_lt.2 (Nat.le_add_left _ _))

class Facts : Prop extends Facts₀ where

variable [Facts]
-- ==== ReferenceIdeal.lean ====
abbrev S32x4096 : Shape := ⟨2, ![32, 4096]⟩
abbrev S32x2x2048 : Shape := ⟨3, ![32, 2, 2048]⟩
abbrev S32x2048x2 : Shape := ⟨3, ![32, 2048, 2]⟩
abbrev S32x2048x1x2 : Shape := ⟨4, ![32, 2048, 1, 2]⟩
abbrev S32x1x2048x2 : Shape := ⟨4, ![32, 1, 2048, 2]⟩
abbrev S32x2048x2048x2 : Shape := ⟨4, ![32, 2048, 2048, 2]⟩
abbrev S_ : Shape := ⟨0, ![]⟩
abbrev S32x2048x2048 : Shape := ⟨3, ![32, 2048, 2048]⟩
abbrev S32x2048 : Shape := ⟨2, ![32, 2048]⟩
abbrev S32 : Shape := ⟨1, ![32]⟩

abbrev nBuf : Space → Nat
  | .hbm => 37
  | .vmem => 0
  | .smem => 0
  | _ => 0

abbrev bufTy : (tb : Table) → Fin (tcTables nBuf tb) → BufTy
  | .hbm, ⟨0, _⟩ => ⟨S32x4096, .f32⟩
  | .hbm, ⟨1, _⟩ => ⟨S32x4096, .f32⟩
  | .hbm, ⟨2, _⟩ => ⟨S32x2x2048, .f32⟩
  | .hbm, ⟨3, _⟩ => ⟨S32x2048x2, .f32⟩
  | .hbm, ⟨4, _⟩ => ⟨S32x2x2048, .f32⟩
  | .hbm, ⟨5, _⟩ => ⟨S32x2048x2, .f32⟩
  | .hbm, ⟨6, _⟩ => ⟨S32x2048x1x2, .f32⟩
  | .hbm, ⟨7, _⟩ => ⟨S32x1x2048x2, .f32⟩
  | .hbm, ⟨8, _⟩ => ⟨S32x2048x2048x2, .f32⟩
  | .hbm, ⟨9, _⟩ => ⟨S32x2048x2048x2, .f32⟩
  | .hbm, ⟨10, _⟩ => ⟨S32x2048x2048x2, .f32⟩
  | .hbm, ⟨11, _⟩ => ⟨S32x2048x2048x2, .f32⟩
  | .hbm, ⟨12, _⟩ => ⟨S_, .f32⟩
  | .hbm, ⟨13, _⟩ => ⟨S32x2048x2048, .f32⟩
  | .hbm, ⟨14, _⟩ => ⟨S32x2048x2048, .f32⟩
  | .hbm, ⟨15, _⟩ => ⟨S_, .f32⟩
  | .hbm, ⟨16, _⟩ => ⟨S32x2048, .f32⟩
  | .hbm, ⟨17, _⟩ => ⟨S_, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32x2048, .f32⟩
  | .hbm, ⟨24, _⟩ => ⟨S_, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | _, _ => ⟨S32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_6 : Ref sig .tc := ⟨.hbm, 30, rfl⟩
abbrev main_v21 : Ref sig .tc := ⟨.hbm, 31, rfl⟩
abbrev main_v22 : Ref sig .tc := ⟨.hbm, 32, rfl⟩
abbrev main_cst_7 : Ref sig .tc := ⟨.hbm, 33, rfl⟩
abbrev main_v23 : Ref sig .tc := ⟨.hbm, 34, rfl⟩
abbrev main_cst_8 : Ref sig .tc := ⟨.hbm, 35, rfl⟩
abbrev main_v24 : Ref sig .tc := ⟨.hbm, 36, rfl⟩

abbrev nD : Nat := 1
abbrev τ : Topo := Topo.v7x

variable {F : FTy → Type} [FloatOps F]

class Facts₀ : Prop where
  shapeCasts_S32x4096_S32x2x2048 : S32x4096.ShapeCasts S32x2x2048
  transposes_S32x2x2048_S32x2048x2_0_2_1 : S32x2x2048.Transposes [0, 2, 1] S32x2048x2
  bcast_S32x2048x2_S32x2048x1x2_0_1_3 : S32x2048x2.BroadcastsInDim S32x2048x1x2 (![0, 1, 3] : Fin 3 → Fin S32x2048x1x2.rank)
  bcast_S32x2048x2_S32x1x2048x2_0_2_3 : S32x2048x2.BroadcastsInDim S32x1x2048x2 (![0, 2, 3] : Fin 3 → Fin S32x1x2048x2.rank)
  bcast_S32x2048x1x2_S32x2048x2048x2_0_1_2_3 : S32x2048x1x2.BroadcastsInDim S32x2048x2048x2 (![0, 1, 2, 3] : Fin 4 → Fin S32x2048x2048x2.rank)
  bcast_S32x1x2048x2_S32x2048x2048x2_0_1_2_3 : S32x1x2048x2.BroadcastsInDim S32x2048x2048x2 (![0, 1, 2, 3] : Fin 4 → Fin S32x2048x2048x2.rank)
  reducesTo_S32x2048x2048x2_S32x2048x2048_d3 : S32x2048x2048x2.ReducesTo [3] S32x2048x2048
  h_S_ : 0 < S_.numel
  reducesTo_S32x2048x2048_S32x2048_d2 : S32x2048x2048.ReducesTo [2] S32x2048
  reducesTo_S32x2048_S32_d1 : S32x2048.ReducesTo [1] S32
  bcast_S_S32 : S_.BroadcastsInDim S32 (![] : Fin 0 → Fin S32.rank)
  reducesTo_S32x2048x2048_S32x2048_d1 : S32x2048x2048.ReducesTo [1] S32x2048
  reducesTo_S32_S_d0 : S32.ReducesTo [0] S_

variable [Facts₀]

class Facts : Prop extends Facts₀ where

variable [Facts]
-- ==== Proof.BitsRunFirst.lean ====
/-
  The kernel body run once per control case, on any whole staging buffers.

  The body reads the four input blocks (the u-points' x and y columns, one v-tile's x and y rows), forms the
  2048 × 512 block of squared distances, and stores its column minima into the second output's buffer at every
  point. The first output's buffer holds a running row minimum: at the first v-tile of a batch row the tile's
  row minima are stored over whatever was there; at a later tile the buffer is read back and the elementwise
  minimum of its contents and the tile's row minima is stored. Each run below finds, for both outputs, the list
  of stores the body leaves in the buffer.
-/
import proofs.«181670_j4939212390978_2_alg».proof.Proof.Gen.Kernel.Frame
import proofs.«181670_j4939212390978_2_alg».proof.Proof.Gen.Kernel.Skeleton
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The first v-tile of a batch row (the first branch taken, the second not): both output buffers start at
    anything; the run finds the stores each ends with. -/
noncomputable def runFirst (c : Dev nD) (i : grid0.Coords) (arg2 : Memref sig .tc .vmem S1x2048x1 .f32) (harg2 : arg2.IsWhole) (arg3 : Memref sig .tc .vmem S1x2048x1 .f32) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x2048x1 .f32) (harg6 : arg6.IsWhole) (arg7 : Memref sig .tc .vmem S1x1x512 .f32) (harg7 : arg7.IsWhole)
    (hc1 : k0_cond1 i = 1#1) (hc2 : ¬k0_cond2 i = 1#1)
    (x0 x1 : Vec F S1x2048x1 .f32) (x2 x3 : Vec F S1x1x512 .f32) :
    Σ' (L6 : List (View.Piece (Elt F) S1x2048x1 .f32)), { L7 : List (View.Piece (Elt F) S1x1x512 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg6.view.loc (c : Thread nD τ) ↦[arg6.view.set]{fullShare} arg6.view.writes (Elt F) f L6)
                ∗ (∃ f, arg7.view.loc (c : Thread nD τ) ↦[arg7.view.set]{fullShare} arg7.view.writes (Elt F) f L7)) -∗ K ⟨⟩))
          ⊢ wp frame (wpE (defs₀ (F := F)) Variants.none c none) E (cc0__p2cp_kernel i arg2 harg2 arg3 harg3 arg4 harg4 arg5 harg5 arg6 harg6 arg7 harg7) K } := by
  refine ⟨?_, ?_, fun E K => ?run⟩
  case run =>
    simp only [cc0__p2cp_kernel_eq_skeleton]; unfold cc0__p2cp_kernel_skel
    unfold owns
    iintro ⟨⟨%f0, %hf0, H0⟩, ⟨%f1, %hf1, H1⟩, ⟨%f2, %hf2, H2⟩, ⟨%f3, %hf3, H3⟩, ⟨%d6, %f6, -, H6⟩, ⟨%d7, %f7, -, H7⟩, Hk⟩
    obtain rfl := harg2.eq_unread hf0; obtain rfl := harg3.eq_unread hf1
    obtain rfl := harg4.eq_unread hf2; obtain rfl := harg5.eq_unread hf3
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]
    · iexists _; iexact H6
    iexists _; iexact H7

end Cert.Kernel.Body

end
-- ==== Proof.BitsRunLater.lean ====
/-
  The kernel body at a later v-tile of a batch row (the first branch not taken, the second taken): the first
  output's buffer holds the running row minima `xo` left by the tile before; the body reads them back and stores
  their elementwise minimum with this tile's row minima. The second output's buffer starts at anything and ends
  with this tile's column minima.
-/
import proofs.«181670_j4939212390978_2_alg».proof.Proof.BitsRunFirst

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A later v-tile: the run finds the stores each output buffer ends with, the first output's over `xo`. -/
noncomputable def runLater (c : Dev nD) (i : grid0.Coords) (arg2 : Memref sig .tc .vmem S1x2048x1 .f32) (harg2 : arg2.IsWhole) (arg3 : Memref sig .tc .vmem S1x2048x1 .f32) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x2048x1 .f32) (harg6 : arg6.IsWhole) (arg7 : Memref sig .tc .vmem S1x1x512 .f32) (harg7 : arg7.IsWhole)
    (hc1 : ¬k0_cond1 i = 1#1) (hc2 : k0_cond2 i = 1#1)
    (x0 x1 : Vec F S1x2048x1 .f32) (x2 x3 : Vec F S1x1x512 .f32) (xo : Vec F S1x2048x1 .f32) :
    Σ' (L6 : List (View.Piece (Elt F) S1x2048x1 .f32)), { L7 : List (View.Piece (Elt F) S1x1x512 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare xo ∗ (∃ d, owns (c : Thread nD τ) arg7 fullShare d)
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg6.view.loc (c : Thread nD τ) ↦[arg6.view.set]{fullShare} arg6.view.writes (Elt F) f L6)
                ∗ (∃ f, arg7.view.loc (c : Thread nD τ) ↦[arg7.view.set]{fullShare} arg7.view.writes (Elt F) f L7)) -∗ K ⟨⟩))
          ⊢ wp frame (wpE (defs₀ (F := F)) Variants.none c none) E (cc0__p2cp_kernel i arg2 harg2 arg3 harg3 arg4 harg4 arg5 harg5 arg6 harg6 arg7 harg7) K } := by
  refine ⟨?_, ?_, fun E K => ?run⟩
  case run =>
    simp only [cc0__p2cp_kernel_eq_skeleton]; unfold cc0__p2cp_kernel_skel
    unfold owns
    iintro ⟨⟨%f0, %hf0, H0⟩, ⟨%f1, %hf1, H1⟩, ⟨%f2, %hf2, H2⟩, ⟨%f3, %hf3, H3⟩, ⟨%f6, %hf6, H6⟩, ⟨%d7, %f7, -, H7⟩, Hk⟩
    obtain rfl := harg2.eq_unread hf0; obtain rfl := harg3.eq_unread hf1
    obtain rfl := harg4.eq_unread hf2; obtain rfl := harg5.eq_unread hf3
    obtain rfl := harg6.eq_unread hf6
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]
    · iexists _; iexact H6
    iexists _; iexact H7

end Cert.Kernel.Body

end
-- ==== Proof.BitsFrame.lean ====
/-
  The frame run of the kernel's program, with every output array named.

  The grid is 32 batch rows by 4 v-tiles, walked row by row: point `t` is tile `t % 4` of row `t / 4`. The first
  branch of the body is taken exactly at the first tile of a row, the second exactly at the later ones. The first
  output's buffer therefore carries a running minimum within a row — reset at the row's first tile, folded with
  each later tile, written back after the fourth — and the second output's buffer is stored whole and written
  back at every point. From this the proof data of the pipeline are stated, the body's obligation is met case by
  case, and the program's run follows: it terminates, faults nowhere, leaves its arguments unchanged, and every
  array ends at what the proof data say.
-/
import proofs.«181670_j4939212390978_2_alg».proof.Proof.BitsRunLater

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions over the grid -/

/-- The first branch is taken exactly at the first v-tile of a batch row. -/
theorem hcond1 : ∀ t : Fin cfg0.N, k0_cond1 (grid0.coords t) = 1#1 ↔ t.val % 4 = 0 :=
  (by decide +kernel : ∀ t : Fin grid0.N, k0_cond1 (grid0.coords t) = 1#1 ↔ t.val % 4 = 0)
/-- The second branch is taken exactly at the later v-tiles. -/
theorem hcond2 : ∀ t : Fin cfg0.N, k0_cond2 (grid0.coords t) = 1#1 ↔ ¬t.val % 4 = 0 :=
  (by decide +kernel : ∀ t : Fin grid0.N, k0_cond2 (grid0.coords t) = 1#1 ↔ ¬t.val % 4 = 0)

/-- One of the two branches stores into the first output's buffer at every point, so no window is ever idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- The same at any coordinates, on the grid or not: the two conditions test one coordinate against zero. -/
theorem live4_all : ∀ i : cfg0.grid.Coords, cfg0.idle 4 i = false := by
  intro i
  show (!(k0_cond1 i == 1#1) && !(k0_cond2 i == 1#1)) = false
  unfold k0_cond1 k0_cond2
  have h : (i 1).val < 4 := (i 1).isLt
  generalize (i 1).val = v at h
  have hv : v = 0 ∨ v = 1 ∨ v = 2 ∨ v = 3 := by omega
  rcases hv with rfl | rfl | rfl | rfl <;> decide

/-! ## The staging buffers at a point -/

/-- One staging buffer of each output window, through which its contents are stated (the choice does not matter). -/
abbrev VO4 : View sig .tc .vmem S1x2048x1 .f32 := (Memref.whole cc0_stg4_0 : Memref sig .tc .vmem S1x2048x1 .f32).view
abbrev VO5 : View sig .tc .vmem S1x1x512 .f32 := (Memref.whole cc0_stg5_0 : Memref sig .tc .vmem S1x1x512 .f32).view

abbrev ms0 (t : Fin cfg0.N) : Memref sig .tc .vmem S1x2048x1 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2048x1 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x2048x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1x512 .f32 := win0_5.stage (cfg0.slots t 5)
abbrev hs5 (t : Fin cfg0.N) : (ms5 t).IsWhole := hstage0_5 ((cfg0.slots t 5).cast nbuf0_5)

/-! ## What each case leaves in the output buffers -/

/-- At a first tile the stores into the first output's buffer cover it: one store of the whole block. -/
theorem coverFirst4 (c : Dev nD) (i : grid0.Coords) (arg2 : Memref sig .tc .vmem S1x2048x1 .f32) (harg2 : arg2.IsWhole) (arg3 : Memref sig .tc .vmem S1x2048x1 .f32) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x2048x1 .f32) (harg6 : arg6.IsWhole) (arg7 : Memref sig .tc .vmem S1x1x512 .f32) (harg7 : arg7.IsWhole)
    (hc1 : k0_cond1 i = 1#1) (hc2 : ¬k0_cond2 i = 1#1) (x0 x1 : Vec F S1x2048x1 .f32) (x2 x3 : Vec F S1x1x512 .f32) (y : S1x2048x1.Idx) :
    ∃ pc ∈ (runFirst c i arg2 harg2 arg3 harg3 arg4 harg4 arg5 harg5 arg6 harg6 arg7 harg7 hc1 hc2 x0 x1 x2 x3).1, y ∈ pc.1.set :=
  View.cover_of_tiledL (runFirst c i arg2 harg2 arg3 harg3 arg4 harg4 arg5 harg5 arg6 harg6 arg7 harg7 hc1 hc2 x0 x1 x2 x3).1 S1x2048x1.size (by sl_kernel_rfl) y
/-- and so do those into the second's. -/
theorem coverFirst5 (c : Dev nD) (i : grid0.Coords) (arg2 : Memref sig .tc .vmem S1x2048x1 .f32) (harg2 : arg2.IsWhole) (arg3 : Memref sig .tc .vmem S1x2048x1 .f32) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x2048x1 .f32) (harg6 : arg6.IsWhole) (arg7 : Memref sig .tc .vmem S1x1x512 .f32) (harg7 : arg7.IsWhole)
    (hc1 : k0_cond1 i = 1#1) (hc2 : ¬k0_cond2 i = 1#1) (x0 x1 : Vec F S1x2048x1 .f32) (x2 x3 : Vec F S1x1x512 .f32) (y : S1x1x512.Idx) :
    ∃ pc ∈ (runFirst c i arg2 harg2 arg3 harg3 arg4 harg4 arg5 harg5 arg6 harg6 arg7 harg7 hc1 hc2 x0 x1 x2 x3).2.1, y ∈ pc.1.set :=
  View.cover_of_tiledL (runFirst c i arg2 harg2 arg3 harg3 arg4 harg4 arg5 harg5 arg6 harg6 arg7 harg7 hc1 hc2 x0 x1 x2 x3).2.1 S1x1x512.size (by sl_kernel_rfl) y
/-- At a later tile likewise, for the first output -/
theorem coverLater4 (c : Dev nD) (i : grid0.Coords) (arg2 : Memref sig .tc .vmem S1x2048x1 .f32) (harg2 : arg2.IsWhole) (arg3 : Memref sig .tc .vmem S1x2048x1 .f32) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x2048x1 .f32) (harg6 : arg6.IsWhole) (arg7 : Memref sig .tc .vmem S1x1x512 .f32) (harg7 : arg7.IsWhole)
    (hc1 : ¬k0_cond1 i = 1#1) (hc2 : k0_cond2 i = 1#1) (x0 x1 : Vec F S1x2048x1 .f32) (x2 x3 : Vec F S1x1x512 .f32) (xo : Vec F S1x2048x1 .f32) (y : S1x2048x1.Idx) :
    ∃ pc ∈ (runLater c i arg2 harg2 arg3 harg3 arg4 harg4 arg5 harg5 arg6 harg6 arg7 harg7 hc1 hc2 x0 x1 x2 x3 xo).1, y ∈ pc.1.set :=
  View.cover_of_tiledL (runLater c i arg2 harg2 arg3 harg3 arg4 harg4 arg5 harg5 arg6 harg6 arg7 harg7 hc1 hc2 x0 x1 x2 x3 xo).1 S1x2048x1.size (by sl_kernel_rfl) y
/-- and the second. -/
theorem coverLater5 (c : Dev nD) (i : grid0.Coords) (arg2 : Memref sig .tc .vmem S1x2048x1 .f32) (harg2 : arg2.IsWhole) (arg3 : Memref sig .tc .vmem S1x2048x1 .f32) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x2048x1 .f32) (harg6 : arg6.IsWhole) (arg7 : Memref sig .tc .vmem S1x1x512 .f32) (harg7 : arg7.IsWhole)
    (hc1 : ¬k0_cond1 i = 1#1) (hc2 : k0_cond2 i = 1#1) (x0 x1 : Vec F S1x2048x1 .f32) (x2 x3 : Vec F S1x1x512 .f32) (xo : Vec F S1x2048x1 .f32) (y : S1x1x512.Idx) :
    ∃ pc ∈ (runLater c i arg2 harg2 arg3 harg3 arg4 harg4 arg5 harg5 arg6 harg6 arg7 harg7 hc1 hc2 x0 x1 x2 x3 xo).2.1, y ∈ pc.1.set :=
  View.cover_of_tiledL (runLater c i arg2 harg2 arg3 harg3 arg4 harg4 arg5 harg5 arg6 harg6 arg7 harg7 hc1 hc2 x0 x1 x2 x3 xo).2.1 S1x1x512.size (by sl_kernel_rfl) y

/-- What a first tile leaves in the first output's buffer: its stores read back. -/
def outFirst4 (c : Dev nD) (i : grid0.Coords) (arg2 : Memref sig .tc .vmem S1x2048x1 .f32) (harg2 : arg2.IsWhole) (arg3 : Memref sig .tc .vmem S1x2048x1 .f32) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x2048x1 .f32) (harg6 : arg6.IsWhole) (arg7 : Memref sig .tc .vmem S1x1x512 .f32) (harg7 : arg7.IsWhole)
    (hc1 : k0_cond1 i = 1#1) (hc2 : ¬k0_cond2 i = 1#1) (x0 x1 : Vec F S1x2048x1 .f32) (x2 x3 : Vec F S1x1x512 .f32) : Vec F S1x2048x1 .f32 :=
  VO4.read (Elt F) (VO4.writes (Elt F) VO4.junk (runFirst c i arg2 harg2 arg3 harg3 arg4 harg4 arg5 harg5 arg6 harg6 arg7 harg7 hc1 hc2 x0 x1 x2 x3).1)
/-- What it leaves in the second's. -/
def outFirst5 (c : Dev nD) (i : grid0.Coords) (arg2 : Memref sig .tc .vmem S1x2048x1 .f32) (harg2 : arg2.IsWhole) (arg3 : Memref sig .tc .vmem S1x2048x1 .f32) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x2048x1 .f32) (harg6 : arg6.IsWhole) (arg7 : Memref sig .tc .vmem S1x1x512 .f32) (harg7 : arg7.IsWhole)
    (hc1 : k0_cond1 i = 1#1) (hc2 : ¬k0_cond2 i = 1#1) (x0 x1 : Vec F S1x2048x1 .f32) (x2 x3 : Vec F S1x1x512 .f32) : Vec F S1x1x512 .f32 :=
  VO5.read (Elt F) (VO5.writes (Elt F) VO5.junk (runFirst c i arg2 harg2 arg3 harg3 arg4 harg4 arg5 harg5 arg6 harg6 arg7 harg7 hc1 hc2 x0 x1 x2 x3).2.1)
/-- What a later tile leaves in the first output's buffer, over the running contents `xo`. -/
def outLater4 (c : Dev nD) (i : grid0.Coords) (arg2 : Memref sig .tc .vmem S1x2048x1 .f32) (harg2 : arg2.IsWhole) (arg3 : Memref sig .tc .vmem S1x2048x1 .f32) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x2048x1 .f32) (harg6 : arg6.IsWhole) (arg7 : Memref sig .tc .vmem S1x1x512 .f32) (harg7 : arg7.IsWhole)
    (hc1 : ¬k0_cond1 i = 1#1) (hc2 : k0_cond2 i = 1#1) (x0 x1 : Vec F S1x2048x1 .f32) (x2 x3 : Vec F S1x1x512 .f32) (xo : Vec F S1x2048x1 .f32) : Vec F S1x2048x1 .f32 :=
  VO4.read (Elt F) (VO4.writes (Elt F) VO4.junk (runLater c i arg2 harg2 arg3 harg3 arg4 harg4 arg5 harg5 arg6 harg6 arg7 harg7 hc1 hc2 x0 x1 x2 x3 xo).1)
/-- What it leaves in the second's. -/
def outLater5 (c : Dev nD) (i : grid0.Coords) (arg2 : Memref sig .tc .vmem S1x2048x1 .f32) (harg2 : arg2.IsWhole) (arg3 : Memref sig .tc .vmem S1x2048x1 .f32) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x2048x1 .f32) (harg6 : arg6.IsWhole) (arg7 : Memref sig .tc .vmem S1x1x512 .f32) (harg7 : arg7.IsWhole)
    (hc1 : ¬k0_cond1 i = 1#1) (hc2 : k0_cond2 i = 1#1) (x0 x1 : Vec F S1x2048x1 .f32) (x2 x3 : Vec F S1x1x512 .f32) (xo : Vec F S1x2048x1 .f32) : Vec F S1x1x512 .f32 :=
  VO5.read (Elt F) (VO5.writes (Elt F) VO5.junk (runLater c i arg2 harg2 arg3 harg3 arg4 harg4 arg5 harg5 arg6 harg6 arg7 harg7 hc1 hc2 x0 x1 x2 x3 xo).2.1)

/-! ## What the outputs hold after each point -/

/-- The running row minimum: what the first output's buffer holds after the body at position `n` — a first tile's
    contents at the first tile of a row, else a later tile's over what position `n - 1` left. -/
def accAt (c : Dev nD) : (n : ℕ) → n < cfg0.N → Vec F S1x2048x1 .f32
  | 0, hn => outFirst4 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) ((hcond1 ⟨0, hn⟩).mpr (Nat.zero_mod _)) (fun h => (hcond2 ⟨0, hn⟩).mp h (Nat.zero_mod _)) (iblk m c 0 ⟨0, hn⟩) (iblk m c 1 ⟨0, hn⟩) (iblk m c 2 ⟨0, hn⟩) (iblk m c 3 ⟨0, hn⟩)
  | n + 1, hn =>
    if h0 : (n + 1) % 4 = 0 then
      outFirst4 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) ((hcond1 ⟨n + 1, hn⟩).mpr h0) (fun h => (hcond2 ⟨n + 1, hn⟩).mp h h0) (iblk m c 0 ⟨n + 1, hn⟩) (iblk m c 1 ⟨n + 1, hn⟩) (iblk m c 2 ⟨n + 1, hn⟩) (iblk m c 3 ⟨n + 1, hn⟩)
    else
      outLater4 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (fun h => h0 ((hcond1 ⟨n + 1, hn⟩).mp h)) ((hcond2 ⟨n + 1, hn⟩).mpr h0) (iblk m c 0 ⟨n + 1, hn⟩) (iblk m c 1 ⟨n + 1, hn⟩) (iblk m c 2 ⟨n + 1, hn⟩) (iblk m c 3 ⟨n + 1, hn⟩) (accAt c n (Nat.lt_of_succ_lt hn))

/-- At a first tile: that case's contents. -/
theorem accAt_first (c : Dev nD) (t : Fin cfg0.N) (h0 : t.val % 4 = 0) :
    accAt m c t.val t.isLt = outFirst4 c (grid0.coords t) (ms0 t) (hs0 t) (ms1 t) (hs1 t) (ms2 t) (hs2 t) (ms3 t) (hs3 t) (ms4 t) (hs4 t) (ms5 t) (hs5 t) ((hcond1 t).mpr h0) (fun h => (hcond2 t).mp h h0) (iblk m c 0 t) (iblk m c 1 t) (iblk m c 2 t) (iblk m c 3 t) := by
  obtain ⟨n, hn⟩ := t
  cases n with
  | zero => exact rfl
  | succ n => exact (dif_pos h0).trans rfl

/-- At a later tile: that case's contents over what the point before left. -/
theorem accAt_later (c : Dev nD) (t : Fin cfg0.N) (h0 : ¬t.val % 4 = 0) :
    accAt m c t.val t.isLt = outLater4 c (grid0.coords t) (ms0 t) (hs0 t) (ms1 t) (hs1 t) (ms2 t) (hs2 t) (ms3 t) (hs3 t) (ms4 t) (hs4 t) (ms5 t) (hs5 t) (fun h => h0 ((hcond1 t).mp h)) ((hcond2 t).mpr h0) (iblk m c 0 t) (iblk m c 1 t) (iblk m c 2 t) (iblk m c 3 t)
      (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The column minima of the point's tile: what the second output's buffer holds after the body at point `t`. -/
def colsAt (c : Dev nD) (t : Fin cfg0.N) : Vec F S1x1x512 .f32 :=
  if h0 : t.val % 4 = 0 then
    outFirst5 c (grid0.coords t) (ms0 t) (hs0 t) (ms1 t) (hs1 t) (ms2 t) (hs2 t) (ms3 t) (hs3 t) (ms4 t) (hs4 t) (ms5 t) (hs5 t) ((hcond1 t).mpr h0) (fun h => (hcond2 t).mp h h0) (iblk m c 0 t) (iblk m c 1 t) (iblk m c 2 t) (iblk m c 3 t)
  else
    outLater5 c (grid0.coords t) (ms0 t) (hs0 t) (ms1 t) (hs1 t) (ms2 t) (hs2 t) (ms3 t) (hs3 t) (ms4 t) (hs4 t) (ms5 t) (hs5 t) (fun h => h0 ((hcond1 t).mp h)) ((hcond2 t).mpr h0) (iblk m c 0 t) (iblk m c 1 t) (iblk m c 2 t) (iblk m c 3 t)
      (accAt m c (t.val - 1) (Nat.lt_of_le_of_lt (Nat.sub_le _ _) t.isLt))

/-! ## The pipeline's proof data -/

/-- The arrays as the region finds them; after the body at point `t` each input's buffer at its block, the first
    output's at the running minimum, the second's at the tile's column minima; the invariant the scoped rest and the
    generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => accAt m c t.val t.isLt
    | ⟨5, _⟩ => colsAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = accAt m c t.val t.isLt := by dsimp only [dats]
theorem after5 (c : Dev nD) (t : Fin cfg0.N) : (dats m 0 c).after 5 t = colsAt m c t := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- At a later tile the first output's buffer holds what the body left at the point before: it was not written
    back between (that happens after a row's fourth tile only), and the window is live and uncut. -/
theorem before4_later (c : Dev nD) (t : Fin cfg0.N) (h0 : ¬t.val % 4 = 0) (d) :
    (dats m 0 c).before 4 t d = accAt m c (t.val - 1) (Nat.lt_of_le_of_lt (Nat.sub_le _ _) t.isLt) := by
  have hN : t.val < 128 := lt_of_lt_of_eq t.isLt (show cfg0.N = 128 from N_0)
  rw [Dat.before_out_kept _ 4 rfl t (by omega) (Bool.eq_false_iff.mpr fun h => by have := (flush0_4 _).mp h; dsimp only at this; omega)
    live4_all (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 1600000 in
/-- The body at any point: the inputs' buffers hold their blocks; the closed forms say which case the point is in;
    at a later tile the first output's buffer holds what the point before left; so that case's run applies, and its
    stores, covering each output's block, leave the contents the proof data name. The invariant passes through
    unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0 t) fullShare ((dats m 0 c).after 0 t) from by
      unfold Dat.leavesExact; rw [live0 t],
    show (dats m 0 c).leavesExact 1 t = owns (c : Thread nD τ) (ms1 t) fullShare ((dats m 0 c).after 1 t) from by
      unfold Dat.leavesExact; rw [live1 t],
    show (dats m 0 c).leavesExact 2 t = owns (c : Thread nD τ) (ms2 t) fullShare ((dats m 0 c).after 2 t) from by
      unfold Dat.leavesExact; rw [live2 t],
    show (dats m 0 c).leavesExact 3 t = owns (c : Thread nD τ) (ms3 t) fullShare ((dats m 0 c).after 3 t) from by
      unfold Dat.leavesExact; rw [live3 t],
    show (dats m 0 c).leavesExact 4 t = owns (c : Thread nD τ) (ms4 t) fullShare ((dats m 0 c).after 4 t) from by
      unfold Dat.leavesExact; rw [live4 t],
    show (dats m 0 c).leavesExact 5 t = owns (c : Thread nD τ) (ms5 t) fullShare ((dats m 0 c).after 5 t) from by
      unfold Dat.leavesExact; rw [live5 t],
    after0, after1, after2, after3, after4, after5]
  by_cases h0 : t.val % 4 = 0
  · rw [accAt_first m c t h0, show colsAt m c t = outFirst5 c (grid0.coords t) (ms0 t) (hs0 t) (ms1 t) (hs1 t) (ms2 t) (hs2 t) (ms3 t) (hs3 t) (ms4 t) (hs4 t) (ms5 t) (hs5 t) ((hcond1 t).mpr h0) (fun h => (hcond2 t).mp h h0) (iblk m c 0 t) (iblk m c 1 t) (iblk m c 2 t) (iblk m c 3 t) from dif_pos h0]
    unfold outFirst4 outFirst5
    iintro ⟨HΦ, Ho, ⟨%d0, H0⟩, ⟨%d1, H1⟩, ⟨%d2, H2⟩, ⟨%d3, H3⟩, ⟨%d4, H4⟩, ⟨%d5, H5⟩⟩
    iapply ((runFirst c (grid0.coords t) _ _ _ _ _ _ _ _ _ _ _ _ ((hcond1 t).mpr h0) (fun h => (hcond2 t).mp h h0) (iblk m c 0 t) (iblk m c 1 t) (iblk m c 2 t) (iblk m c 3 t)).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverFirst4 c _ _ _ _ _ _ _ _ _ _ _ _ _ _ _ _ _ _ _)
    unfold owns; iexists _; isplitr
    swap; · iexact H5
    ipureintro; exact View.read_writes_of_cover _ _ _ _ _ (coverFirst5 c _ _ _ _ _ _ _ _ _ _ _ _ _ _ _ _ _ _ _)
  · rw [accAt_later m c t h0, show colsAt m c t = outLater5 c (grid0.coords t) (ms0 t) (hs0 t) (ms1 t) (hs1 t) (ms2 t) (hs2 t) (ms3 t) (hs3 t) (ms4 t) (hs4 t) (ms5 t) (hs5 t) (fun h => h0 ((hcond1 t).mp h)) ((hcond2 t).mpr h0) (iblk m c 0 t) (iblk m c 1 t) (iblk m c 2 t) (iblk m c 3 t)
      (accAt m c (t.val - 1) (Nat.lt_of_le_of_lt (Nat.sub_le _ _) t.isLt)) from dif_neg h0]
    simp only [before4_later m c t h0]
    unfold outLater4 outLater5
    iintro ⟨HΦ, Ho, ⟨%d0, H0⟩, ⟨%d1, H1⟩, ⟨%d2, H2⟩, ⟨%d3, H3⟩, ⟨%d4, H4⟩, ⟨%d5, H5⟩⟩
    iapply ((runLater c (grid0.coords t) _ _ _ _ _ _ _ _ _ _ _ _ (fun h => h0 ((hcond1 t).mp h)) ((hcond2 t).mpr h0) (iblk m c 0 t) (iblk m c 1 t) (iblk m c 2 t) (iblk m c 3 t) _).2.2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverLater4 c _ _ _ _ _ _ _ _ _ _ _ _ _ _ _ _ _ _ _ _)
    unfold owns; iexists _; isplitr
    swap; · iexact H5
    ipureintro; exact View.read_writes_of_cover _ _ _ _ _ (coverLater5 c _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state
    has every array of the pipeline at what the proof data say and every other unscoped buffer as the host lines
    after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere, and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.IdealRunFirst.lean ====
/-
  The kernel body run once per control case, on any whole staging buffers.

  The body reads the four input blocks (the u-points' x and y columns, one v-tile's x and y rows), forms the
  2048 × 512 block of squared distances, and stores its column minima into the second output's buffer at every
  point. The first output's buffer holds a running row minimum: at the first v-tile of a batch row the tile's
  row minima are stored over whatever was there; at a later tile the buffer is read back and the elementwise
  minimum of its contents and the tile's row minima is stored. Each run below finds, for both outputs, the list
  of stores the body leaves in the buffer.
-/
import proofs.«181670_j4939212390978_2_alg».proof.Proof.Gen.KernelIdeal.Frame
import proofs.«181670_j4939212390978_2_alg».proof.Proof.Gen.KernelIdeal.Skeleton
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The first v-tile of a batch row (the first branch taken, the second not): both output buffers start at
    anything; the run finds the stores each ends with. -/
noncomputable def runFirst (c : Dev nD) (i : grid0.Coords) (arg2 : Memref sig .tc .vmem S1x2048x1 .f32) (harg2 : arg2.IsWhole) (arg3 : Memref sig .tc .vmem S1x2048x1 .f32) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x2048x1 .f32) (harg6 : arg6.IsWhole) (arg7 : Memref sig .tc .vmem S1x1x512 .f32) (harg7 : arg7.IsWhole)
    (hc1 : k0_cond1 i = 1#1) (hc2 : ¬k0_cond2 i = 1#1)
    (x0 x1 : Vec F S1x2048x1 .f32) (x2 x3 : Vec F S1x1x512 .f32) :
    Σ' (L6 : List (View.Piece (Elt F) S1x2048x1 .f32)), { L7 : List (View.Piece (Elt F) S1x1x512 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg6.view.loc (c : Thread nD τ) ↦[arg6.view.set]{fullShare} arg6.view.writes (Elt F) f L6)
                ∗ (∃ f, arg7.view.loc (c : Thread nD τ) ↦[arg7.view.set]{fullShare} arg7.view.writes (Elt F) f L7)) -∗ K ⟨⟩))
          ⊢ wp frame (wpE (defs₀ (F := F)) Variants.none c none) E (cc0__p2cp_kernel i arg2 harg2 arg3 harg3 arg4 harg4 arg5 harg5 arg6 harg6 arg7 harg7) K } := by
  refine ⟨?_, ?_, fun E K => ?run⟩
  case run =>
    simp only [cc0__p2cp_kernel_eq_skeleton]; unfold cc0__p2cp_kernel_skel
    unfold owns
    iintro ⟨⟨%f0, %hf0, H0⟩, ⟨%f1, %hf1, H1⟩, ⟨%f2, %hf2, H2⟩, ⟨%f3, %hf3, H3⟩, ⟨%d6, %f6, -, H6⟩, ⟨%d7, %f7, -, H7⟩, Hk⟩
    obtain rfl := harg2.eq_unread hf0; obtain rfl := harg3.eq_unread hf1
    obtain rfl := harg4.eq_unread hf2; obtain rfl := harg5.eq_unread hf3
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]
    · iexists _; iexact H6
    iexists _; iexact H7

end Cert.KernelIdeal.Body

end
-- ==== Proof.IdealRunLater.lean ====
/-
  The kernel body at a later v-tile of a batch row (the first branch not taken, the second taken): the first
  output's buffer holds the running row minima `xo` left by the tile before; the body reads them back and stores
  their elementwise minimum with this tile's row minima. The second output's buffer starts at anything and ends
  with this tile's column minima.
-/
import proofs.«181670_j4939212390978_2_alg».proof.Proof.IdealRunFirst

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A later v-tile: the run finds the stores each output buffer ends with, the first output's over `xo`. -/
noncomputable def runLater (c : Dev nD) (i : grid0.Coords) (arg2 : Memref sig .tc .vmem S1x2048x1 .f32) (harg2 : arg2.IsWhole) (arg3 : Memref sig .tc .vmem S1x2048x1 .f32) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x2048x1 .f32) (harg6 : arg6.IsWhole) (arg7 : Memref sig .tc .vmem S1x1x512 .f32) (harg7 : arg7.IsWhole)
    (hc1 : ¬k0_cond1 i = 1#1) (hc2 : k0_cond2 i = 1#1)
    (x0 x1 : Vec F S1x2048x1 .f32) (x2 x3 : Vec F S1x1x512 .f32) (xo : Vec F S1x2048x1 .f32) :
    Σ' (L6 : List (View.Piece (Elt F) S1x2048x1 .f32)), { L7 : List (View.Piece (Elt F) S1x1x512 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare xo ∗ (∃ d, owns (c : Thread nD τ) arg7 fullShare d)
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg6.view.loc (c : Thread nD τ) ↦[arg6.view.set]{fullShare} arg6.view.writes (Elt F) f L6)
                ∗ (∃ f, arg7.view.loc (c : Thread nD τ) ↦[arg7.view.set]{fullShare} arg7.view.writes (Elt F) f L7)) -∗ K ⟨⟩))
          ⊢ wp frame (wpE (defs₀ (F := F)) Variants.none c none) E (cc0__p2cp_kernel i arg2 harg2 arg3 harg3 arg4 harg4 arg5 harg5 arg6 harg6 arg7 harg7) K } := by
  refine ⟨?_, ?_, fun E K => ?run⟩
  case run =>
    simp only [cc0__p2cp_kernel_eq_skeleton]; unfold cc0__p2cp_kernel_skel
    unfold owns
    iintro ⟨⟨%f0, %hf0, H0⟩, ⟨%f1, %hf1, H1⟩, ⟨%f2, %hf2, H2⟩, ⟨%f3, %hf3, H3⟩, ⟨%f6, %hf6, H6⟩, ⟨%d7, %f7, -, H7⟩, Hk⟩
    obtain rfl := harg2.eq_unread hf0; obtain rfl := harg3.eq_unread hf1
    obtain rfl := harg4.eq_unread hf2; obtain rfl := harg5.eq_unread hf3
    obtain rfl := harg6.eq_unread hf6
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]
    · iexists _; iexact H6
    iexists _; iexact H7

end Cert.KernelIdeal.Body

end
-- ==== Proof.IdealFrame.lean ====
/-
  The frame run of the kernel's program, with every output array named.

  The grid is 32 batch rows by 4 v-tiles, walked row by row: point `t` is tile `t % 4` of row `t / 4`. The first
  branch of the body is taken exactly at the first tile of a row, the second exactly at the later ones. The first
  output's buffer therefore carries a running minimum within a row — reset at the row's first tile, folded with
  each later tile, written back after the fourth — and the second output's buffer is stored whole and written
  back at every point. From this the proof data of the pipeline are stated, the body's obligation is met case by
  case, and the program's run follows: it terminates, faults nowhere, leaves its arguments unchanged, and every
  array ends at what the proof data say.
-/
import proofs.«181670_j4939212390978_2_alg».proof.Proof.IdealRunLater

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions over the grid -/

/-- The first branch is taken exactly at the first v-tile of a batch row. -/
theorem hcond1 : ∀ t : Fin cfg0.N, k0_cond1 (grid0.coords t) = 1#1 ↔ t.val % 4 = 0 :=
  (by decide +kernel : ∀ t : Fin grid0.N, k0_cond1 (grid0.coords t) = 1#1 ↔ t.val % 4 = 0)
/-- The second branch is taken exactly at the later v-tiles. -/
theorem hcond2 : ∀ t : Fin cfg0.N, k0_cond2 (grid0.coords t) = 1#1 ↔ ¬t.val % 4 = 0 :=
  (by decide +kernel : ∀ t : Fin grid0.N, k0_cond2 (grid0.coords t) = 1#1 ↔ ¬t.val % 4 = 0)

/-- One of the two branches stores into the first output's buffer at every point, so no window is ever idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- The same at any coordinates, on the grid or not: the two conditions test one coordinate against zero. -/
theorem live4_all : ∀ i : cfg0.grid.Coords, cfg0.idle 4 i = false := by
  intro i
  show (!(k0_cond1 i == 1#1) && !(k0_cond2 i == 1#1)) = false
  unfold k0_cond1 k0_cond2
  have h : (i 1).val < 4 := (i 1).isLt
  generalize (i 1).val = v at h
  have hv : v = 0 ∨ v = 1 ∨ v = 2 ∨ v = 3 := by omega
  rcases hv with rfl | rfl | rfl | rfl <;> decide

/-! ## The staging buffers at a point -/

/-- One staging buffer of each output window, through which its contents are stated (the choice does not matter). -/
abbrev VO4 : View sig .tc .vmem S1x2048x1 .f32 := (Memref.whole cc0_stg4_0 : Memref sig .tc .vmem S1x2048x1 .f32).view
abbrev VO5 : View sig .tc .vmem S1x1x512 .f32 := (Memref.whole cc0_stg5_0 : Memref sig .tc .vmem S1x1x512 .f32).view

abbrev ms0 (t : Fin cfg0.N) : Memref sig .tc .vmem S1x2048x1 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2048x1 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x2048x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1x512 .f32 := win0_5.stage (cfg0.slots t 5)
abbrev hs5 (t : Fin cfg0.N) : (ms5 t).IsWhole := hstage0_5 ((cfg0.slots t 5).cast nbuf0_5)

/-! ## What each case leaves in the output buffers -/

/-- At a first tile the stores into the first output's buffer cover it: one store of the whole block. -/
theorem coverFirst4 (c : Dev nD) (i : grid0.Coords) (arg2 : Memref sig .tc .vmem S1x2048x1 .f32) (harg2 : arg2.IsWhole) (arg3 : Memref sig .tc .vmem S1x2048x1 .f32) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x2048x1 .f32) (harg6 : arg6.IsWhole) (arg7 : Memref sig .tc .vmem S1x1x512 .f32) (harg7 : arg7.IsWhole)
    (hc1 : k0_cond1 i = 1#1) (hc2 : ¬k0_cond2 i = 1#1) (x0 x1 : Vec F S1x2048x1 .f32) (x2 x3 : Vec F S1x1x512 .f32) (y : S1x2048x1.Idx) :
    ∃ pc ∈ (runFirst c i arg2 harg2 arg3 harg3 arg4 harg4 arg5 harg5 arg6 harg6 arg7 harg7 hc1 hc2 x0 x1 x2 x3).1, y ∈ pc.1.set :=
  View.cover_of_tiledL (runFirst c i arg2 harg2 arg3 harg3 arg4 harg4 arg5 harg5 arg6 harg6 arg7 harg7 hc1 hc2 x0 x1 x2 x3).1 S1x2048x1.size (by sl_kernel_rfl) y
/-- and so do those into the second's. -/
theorem coverFirst5 (c : Dev nD) (i : grid0.Coords) (arg2 : Memref sig .tc .vmem S1x2048x1 .f32) (harg2 : arg2.IsWhole) (arg3 : Memref sig .tc .vmem S1x2048x1 .f32) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x2048x1 .f32) (harg6 : arg6.IsWhole) (arg7 : Memref sig .tc .vmem S1x1x512 .f32) (harg7 : arg7.IsWhole)
    (hc1 : k0_cond1 i = 1#1) (hc2 : ¬k0_cond2 i = 1#1) (x0 x1 : Vec F S1x2048x1 .f32) (x2 x3 : Vec F S1x1x512 .f32) (y : S1x1x512.Idx) :
    ∃ pc ∈ (runFirst c i arg2 harg2 arg3 harg3 arg4 harg4 arg5 harg5 arg6 harg6 arg7 harg7 hc1 hc2 x0 x1 x2 x3).2.1, y ∈ pc.1.set :=
  View.cover_of_tiledL (runFirst c i arg2 harg2 arg3 harg3 arg4 harg4 arg5 harg5 arg6 harg6 arg7 harg7 hc1 hc2 x0 x1 x2 x3).2.1 S1x1x512.size (by sl_kernel_rfl) y
/-- At a later tile likewise, for the first output -/
theorem coverLater4 (c : Dev nD) (i : grid0.Coords) (arg2 : Memref sig .tc .vmem S1x2048x1 .f32) (harg2 : arg2.IsWhole) (arg3 : Memref sig .tc .vmem S1x2048x1 .f32) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x2048x1 .f32) (harg6 : arg6.IsWhole) (arg7 : Memref sig .tc .vmem S1x1x512 .f32) (harg7 : arg7.IsWhole)
    (hc1 : ¬k0_cond1 i = 1#1) (hc2 : k0_cond2 i = 1#1) (x0 x1 : Vec F S1x2048x1 .f32) (x2 x3 : Vec F S1x1x512 .f32) (xo : Vec F S1x2048x1 .f32) (y : S1x2048x1.Idx) :
    ∃ pc ∈ (runLater c i arg2 harg2 arg3 harg3 arg4 harg4 arg5 harg5 arg6 harg6 arg7 harg7 hc1 hc2 x0 x1 x2 x3 xo).1, y ∈ pc.1.set :=
  View.cover_of_tiledL (runLater c i arg2 harg2 arg3 harg3 arg4 harg4 arg5 harg5 arg6 harg6 arg7 harg7 hc1 hc2 x0 x1 x2 x3 xo).1 S1x2048x1.size (by sl_kernel_rfl) y
/-- and the second. -/
theorem coverLater5 (c : Dev nD) (i : grid0.Coords) (arg2 : Memref sig .tc .vmem S1x2048x1 .f32) (harg2 : arg2.IsWhole) (arg3 : Memref sig .tc .vmem S1x2048x1 .f32) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x2048x1 .f32) (harg6 : arg6.IsWhole) (arg7 : Memref sig .tc .vmem S1x1x512 .f32) (harg7 : arg7.IsWhole)
    (hc1 : ¬k0_cond1 i = 1#1) (hc2 : k0_cond2 i = 1#1) (x0 x1 : Vec F S1x2048x1 .f32) (x2 x3 : Vec F S1x1x512 .f32) (xo : Vec F S1x2048x1 .f32) (y : S1x1x512.Idx) :
    ∃ pc ∈ (runLater c i arg2 harg2 arg3 harg3 arg4 harg4 arg5 harg5 arg6 harg6 arg7 harg7 hc1 hc2 x0 x1 x2 x3 xo).2.1, y ∈ pc.1.set :=
  View.cover_of_tiledL (runLater c i arg2 harg2 arg3 harg3 arg4 harg4 arg5 harg5 arg6 harg6 arg7 harg7 hc1 hc2 x0 x1 x2 x3 xo).2.1 S1x1x512.size (by sl_kernel_rfl) y

/-- What a first tile leaves in the first output's buffer: its stores read back. -/
def outFirst4 (c : Dev nD) (i : grid0.Coords) (arg2 : Memref sig .tc .vmem S1x2048x1 .f32) (harg2 : arg2.IsWhole) (arg3 : Memref sig .tc .vmem S1x2048x1 .f32) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x2048x1 .f32) (harg6 : arg6.IsWhole) (arg7 : Memref sig .tc .vmem S1x1x512 .f32) (harg7 : arg7.IsWhole)
    (hc1 : k0_cond1 i = 1#1) (hc2 : ¬k0_cond2 i = 1#1) (x0 x1 : Vec F S1x2048x1 .f32) (x2 x3 : Vec F S1x1x512 .f32) : Vec F S1x2048x1 .f32 :=
  VO4.read (Elt F) (VO4.writes (Elt F) VO4.junk (runFirst c i arg2 harg2 arg3 harg3 arg4 harg4 arg5 harg5 arg6 harg6 arg7 harg7 hc1 hc2 x0 x1 x2 x3).1)
/-- What it leaves in the second's. -/
def outFirst5 (c : Dev nD) (i : grid0.Coords) (arg2 : Memref sig .tc .vmem S1x2048x1 .f32) (harg2 : arg2.IsWhole) (arg3 : Memref sig .tc .vmem S1x2048x1 .f32) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x2048x1 .f32) (harg6 : arg6.IsWhole) (arg7 : Memref sig .tc .vmem S1x1x512 .f32) (harg7 : arg7.IsWhole)
    (hc1 : k0_cond1 i = 1#1) (hc2 : ¬k0_cond2 i = 1#1) (x0 x1 : Vec F S1x2048x1 .f32) (x2 x3 : Vec F S1x1x512 .f32) : Vec F S1x1x512 .f32 :=
  VO5.read (Elt F) (VO5.writes (Elt F) VO5.junk (runFirst c i arg2 harg2 arg3 harg3 arg4 harg4 arg5 harg5 arg6 harg6 arg7 harg7 hc1 hc2 x0 x1 x2 x3).2.1)
/-- What a later tile leaves in the first output's buffer, over the running contents `xo`. -/
def outLater4 (c : Dev nD) (i : grid0.Coords) (arg2 : Memref sig .tc .vmem S1x2048x1 .f32) (harg2 : arg2.IsWhole) (arg3 : Memref sig .tc .vmem S1x2048x1 .f32) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x2048x1 .f32) (harg6 : arg6.IsWhole) (arg7 : Memref sig .tc .vmem S1x1x512 .f32) (harg7 : arg7.IsWhole)
    (hc1 : ¬k0_cond1 i = 1#1) (hc2 : k0_cond2 i = 1#1) (x0 x1 : Vec F S1x2048x1 .f32) (x2 x3 : Vec F S1x1x512 .f32) (xo : Vec F S1x2048x1 .f32) : Vec F S1x2048x1 .f32 :=
  VO4.read (Elt F) (VO4.writes (Elt F) VO4.junk (runLater c i arg2 harg2 arg3 harg3 arg4 harg4 arg5 harg5 arg6 harg6 arg7 harg7 hc1 hc2 x0 x1 x2 x3 xo).1)
/-- What it leaves in the second's. -/
def outLater5 (c : Dev nD) (i : grid0.Coords) (arg2 : Memref sig .tc .vmem S1x2048x1 .f32) (harg2 : arg2.IsWhole) (arg3 : Memref sig .tc .vmem S1x2048x1 .f32) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x2048x1 .f32) (harg6 : arg6.IsWhole) (arg7 : Memref sig .tc .vmem S1x1x512 .f32) (harg7 : arg7.IsWhole)
    (hc1 : ¬k0_cond1 i = 1#1) (hc2 : k0_cond2 i = 1#1) (x0 x1 : Vec F S1x2048x1 .f32) (x2 x3 : Vec F S1x1x512 .f32) (xo : Vec F S1x2048x1 .f32) : Vec F S1x1x512 .f32 :=
  VO5.read (Elt F) (VO5.writes (Elt F) VO5.junk (runLater c i arg2 harg2 arg3 harg3 arg4 harg4 arg5 harg5 arg6 harg6 arg7 harg7 hc1 hc2 x0 x1 x2 x3 xo).2.1)

/-! ## What the outputs hold after each point -/

/-- The running row minimum: what the first output's buffer holds after the body at position `n` — a first tile's
    contents at the first tile of a row, else a later tile's over what position `n - 1` left. -/
def accAt (c : Dev nD) : (n : ℕ) → n < cfg0.N → Vec F S1x2048x1 .f32
  | 0, hn => outFirst4 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) ((hcond1 ⟨0, hn⟩).mpr (Nat.zero_mod _)) (fun h => (hcond2 ⟨0, hn⟩).mp h (Nat.zero_mod _)) (iblk m c 0 ⟨0, hn⟩) (iblk m c 1 ⟨0, hn⟩) (iblk m c 2 ⟨0, hn⟩) (iblk m c 3 ⟨0, hn⟩)
  | n + 1, hn =>
    if h0 : (n + 1) % 4 = 0 then
      outFirst4 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) ((hcond1 ⟨n + 1, hn⟩).mpr h0) (fun h => (hcond2 ⟨n + 1, hn⟩).mp h h0) (iblk m c 0 ⟨n + 1, hn⟩) (iblk m c 1 ⟨n + 1, hn⟩) (iblk m c 2 ⟨n + 1, hn⟩) (iblk m c 3 ⟨n + 1, hn⟩)
    else
      outLater4 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (fun h => h0 ((hcond1 ⟨n + 1, hn⟩).mp h)) ((hcond2 ⟨n + 1, hn⟩).mpr h0) (iblk m c 0 ⟨n + 1, hn⟩) (iblk m c 1 ⟨n + 1, hn⟩) (iblk m c 2 ⟨n + 1, hn⟩) (iblk m c 3 ⟨n + 1, hn⟩) (accAt c n (Nat.lt_of_succ_lt hn))

/-- At a first tile: that case's contents. -/
theorem accAt_first (c : Dev nD) (t : Fin cfg0.N) (h0 : t.val % 4 = 0) :
    accAt m c t.val t.isLt = outFirst4 c (grid0.coords t) (ms0 t) (hs0 t) (ms1 t) (hs1 t) (ms2 t) (hs2 t) (ms3 t) (hs3 t) (ms4 t) (hs4 t) (ms5 t) (hs5 t) ((hcond1 t).mpr h0) (fun h => (hcond2 t).mp h h0) (iblk m c 0 t) (iblk m c 1 t) (iblk m c 2 t) (iblk m c 3 t) := by
  obtain ⟨n, hn⟩ := t
  cases n with
  | zero => exact rfl
  | succ n => exact (dif_pos h0).trans rfl

/-- At a later tile: that case's contents over what the point before left. -/
theorem accAt_later (c : Dev nD) (t : Fin cfg0.N) (h0 : ¬t.val % 4 = 0) :
    accAt m c t.val t.isLt = outLater4 c (grid0.coords t) (ms0 t) (hs0 t) (ms1 t) (hs1 t) (ms2 t) (hs2 t) (ms3 t) (hs3 t) (ms4 t) (hs4 t) (ms5 t) (hs5 t) (fun h => h0 ((hcond1 t).mp h)) ((hcond2 t).mpr h0) (iblk m c 0 t) (iblk m c 1 t) (iblk m c 2 t) (iblk m c 3 t)
      (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The column minima of the point's tile: what the second output's buffer holds after the body at point `t`. -/
def colsAt (c : Dev nD) (t : Fin cfg0.N) : Vec F S1x1x512 .f32 :=
  if h0 : t.val % 4 = 0 then
    outFirst5 c (grid0.coords t) (ms0 t) (hs0 t) (ms1 t) (hs1 t) (ms2 t) (hs2 t) (ms3 t) (hs3 t) (ms4 t) (hs4 t) (ms5 t) (hs5 t) ((hcond1 t).mpr h0) (fun h => (hcond2 t).mp h h0) (iblk m c 0 t) (iblk m c 1 t) (iblk m c 2 t) (iblk m c 3 t)
  else
    outLater5 c (grid0.coords t) (ms0 t) (hs0 t) (ms1 t) (hs1 t) (ms2 t) (hs2 t) (ms3 t) (hs3 t) (ms4 t) (hs4 t) (ms5 t) (hs5 t) (fun h => h0 ((hcond1 t).mp h)) ((hcond2 t).mpr h0) (iblk m c 0 t) (iblk m c 1 t) (iblk m c 2 t) (iblk m c 3 t)
      (accAt m c (t.val - 1) (Nat.lt_of_le_of_lt (Nat.sub_le _ _) t.isLt))

/-! ## The pipeline's proof data -/

/-- The arrays as the region finds them; after the body at point `t` each input's buffer at its block, the first
    output's at the running minimum, the second's at the tile's column minima; the invariant the scoped rest and the
    generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => accAt m c t.val t.isLt
    | ⟨5, _⟩ => colsAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = accAt m c t.val t.isLt := by dsimp only [dats]
theorem after5 (c : Dev nD) (t : Fin cfg0.N) : (dats m 0 c).after 5 t = colsAt m c t := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- At a later tile the first output's buffer holds what the body left at the point before: it was not written
    back between (that happens after a row's fourth tile only), and the window is live and uncut. -/
theorem before4_later (c : Dev nD) (t : Fin cfg0.N) (h0 : ¬t.val % 4 = 0) (d) :
    (dats m 0 c).before 4 t d = accAt m c (t.val - 1) (Nat.lt_of_le_of_lt (Nat.sub_le _ _) t.isLt) := by
  have hN : t.val < 128 := lt_of_lt_of_eq t.isLt (show cfg0.N = 128 from N_0)
  rw [Dat.before_out_kept _ 4 rfl t (by omega) (Bool.eq_false_iff.mpr fun h => by have := (flush0_4 _).mp h; dsimp only at this; omega)
    live4_all (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 1600000 in
/-- The body at any point: the inputs' buffers hold their blocks; the closed forms say which case the point is in;
    at a later tile the first output's buffer holds what the point before left; so that case's run applies, and its
    stores, covering each output's block, leave the contents the proof data name. The invariant passes through
    unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0 t) fullShare ((dats m 0 c).after 0 t) from by
      unfold Dat.leavesExact; rw [live0 t],
    show (dats m 0 c).leavesExact 1 t = owns (c : Thread nD τ) (ms1 t) fullShare ((dats m 0 c).after 1 t) from by
      unfold Dat.leavesExact; rw [live1 t],
    show (dats m 0 c).leavesExact 2 t = owns (c : Thread nD τ) (ms2 t) fullShare ((dats m 0 c).after 2 t) from by
      unfold Dat.leavesExact; rw [live2 t],
    show (dats m 0 c).leavesExact 3 t = owns (c : Thread nD τ) (ms3 t) fullShare ((dats m 0 c).after 3 t) from by
      unfold Dat.leavesExact; rw [live3 t],
    show (dats m 0 c).leavesExact 4 t = owns (c : Thread nD τ) (ms4 t) fullShare ((dats m 0 c).after 4 t) from by
      unfold Dat.leavesExact; rw [live4 t],
    show (dats m 0 c).leavesExact 5 t = owns (c : Thread nD τ) (ms5 t) fullShare ((dats m 0 c).after 5 t) from by
      unfold Dat.leavesExact; rw [live5 t],
    after0, after1, after2, after3, after4, after5]
  by_cases h0 : t.val % 4 = 0
  · rw [accAt_first m c t h0, show colsAt m c t = outFirst5 c (grid0.coords t) (ms0 t) (hs0 t) (ms1 t) (hs1 t) (ms2 t) (hs2 t) (ms3 t) (hs3 t) (ms4 t) (hs4 t) (ms5 t) (hs5 t) ((hcond1 t).mpr h0) (fun h => (hcond2 t).mp h h0) (iblk m c 0 t) (iblk m c 1 t) (iblk m c 2 t) (iblk m c 3 t) from dif_pos h0]
    unfold outFirst4 outFirst5
    iintro ⟨HΦ, Ho, ⟨%d0, H0⟩, ⟨%d1, H1⟩, ⟨%d2, H2⟩, ⟨%d3, H3⟩, ⟨%d4, H4⟩, ⟨%d5, H5⟩⟩
    iapply ((runFirst c (grid0.coords t) _ _ _ _ _ _ _ _ _ _ _ _ ((hcond1 t).mpr h0) (fun h => (hcond2 t).mp h h0) (iblk m c 0 t) (iblk m c 1 t) (iblk m c 2 t) (iblk m c 3 t)).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverFirst4 c _ _ _ _ _ _ _ _ _ _ _ _ _ _ _ _ _ _ _)
    unfold owns; iexists _; isplitr
    swap; · iexact H5
    ipureintro; exact View.read_writes_of_cover _ _ _ _ _ (coverFirst5 c _ _ _ _ _ _ _ _ _ _ _ _ _ _ _ _ _ _ _)
  · rw [accAt_later m c t h0, show colsAt m c t = outLater5 c (grid0.coords t) (ms0 t) (hs0 t) (ms1 t) (hs1 t) (ms2 t) (hs2 t) (ms3 t) (hs3 t) (ms4 t) (hs4 t) (ms5 t) (hs5 t) (fun h => h0 ((hcond1 t).mp h)) ((hcond2 t).mpr h0) (iblk m c 0 t) (iblk m c 1 t) (iblk m c 2 t) (iblk m c 3 t)
      (accAt m c (t.val - 1) (Nat.lt_of_le_of_lt (Nat.sub_le _ _) t.isLt)) from dif_neg h0]
    simp only [before4_later m c t h0]
    unfold outLater4 outLater5
    iintro ⟨HΦ, Ho, ⟨%d0, H0⟩, ⟨%d1, H1⟩, ⟨%d2, H2⟩, ⟨%d3, H3⟩, ⟨%d4, H4⟩, ⟨%d5, H5⟩⟩
    iapply ((runLater c (grid0.coords t) _ _ _ _ _ _ _ _ _ _ _ _ (fun h => h0 ((hcond1 t).mp h)) ((hcond2 t).mpr h0) (iblk m c 0 t) (iblk m c 1 t) (iblk m c 2 t) (iblk m c 3 t) _).2.2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverLater4 c _ _ _ _ _ _ _ _ _ _ _ _ _ _ _ _ _ _ _ _)
    unfold owns; iexists _; isplitr
    swap; · iexact H5
    ipureintro; exact View.read_writes_of_cover _ _ _ _ _ (coverLater5 c _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state
    has every array of the pipeline at what the proof data say and every other unscoped buffer as the host lines
    after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere, and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.ClosestPointSpec.lean ====
/-
  The specification: the symmetric mean point-to-closest-point distance of two batches of planar point clouds,
  as one function of the two argument arrays on the extended reals.

  Each argument is a [32, 4096] array: row `b` holds the 2048 x-coordinates of its cloud followed by the 2048
  y-coordinates. For a u-point `i` and a v-point `j` of row `b` the squared distance is
  (ux_i - vx_j)² + (uy_i - vy_j)². Each u-point's nearest v-point is the minimum of these over `j` (from +∞),
  each v-point's nearest u-point the minimum over `i`; the loss is the mean over the batch of half the sum of
  the two row means of the square roots of those minima. Sums are written as the initial value plus the sum and
  quotients by the division on the extended reals, literal by literal as both programs spell them, so that no
  literal's value is ever needed.
-/
import Idealize.ShloMosaic.PureOps.Ideal
import Idealize.ShloMosaic.Lib.ValueIdx

noncomputable section

namespace Cert.ClosestPoint

open Idealize.ShloMosaic Idealize.ShloMosaic.ValueIdx
open scoped BigOperators

/-- An argument array: 32 rows of 4096 extended reals. -/
abbrev Arr : Type := (⟨2, ![32, 4096]⟩ : Shape).Idx → EReal

/-- The x-coordinate of point `n` of row `b`: entry `n` of the row. -/
def px (a : Arr) (b : Fin 32) (n : Fin 2048) : EReal := a (ix2 b (⟨n.val, by omega⟩ : Fin 4096))
/-- The y-coordinate of point `n` of row `b`: entry `2048 + n` of the row. -/
def py (a : Arr) (b : Fin 32) (n : Fin 2048) : EReal := a (ix2 b (⟨2048 + n.val, by omega⟩ : Fin 4096))

/-- The squared distance between u-point `i` and v-point `j` of row `b`. -/
def sqDist (u v : Arr) (b : Fin 32) (i j : Fin 2048) : EReal :=
  (px u b i - px v b j) * (px u b i - px v b j) + (py u b i - py v b j) * (py u b i - py v b j)

/-- The word of +∞, the value every minimum starts from. -/
def posInf : EReal := Ideal.ofBits .f32 0x7F800000#32

/-- The squared distance from u-point `i` to its nearest v-point. -/
def nearestV (u v : Arr) (b : Fin 32) (i : Fin 2048) : EReal :=
  (Finset.univ : Finset (Fin 2048)).fold min posInf (fun j => sqDist u v b i j)
/-- The squared distance from v-point `j` to its nearest u-point. -/
def nearestU (u v : Arr) (b : Fin 32) (j : Fin 2048) : EReal :=
  (Finset.univ : Finset (Fin 2048)).fold min posInf (fun i => sqDist u v b i j)

/-- Row `b`'s mean distance from a u-point to its nearest v-point. -/
def meanU (u v : Arr) (b : Fin 32) : EReal :=
  Ideal.div (Ideal.ofBits .f32 0x00000000#32 + ∑ i : Fin 2048, Ideal.sqrt (nearestV u v b i)) (Ideal.ofBits .f32 0x45000000#32)
/-- Row `b`'s mean distance from a v-point to its nearest u-point. -/
def meanV (u v : Arr) (b : Fin 32) : EReal :=
  Ideal.div (Ideal.ofBits .f32 0x00000000#32 + ∑ j : Fin 2048, Ideal.sqrt (nearestU u v b j)) (Ideal.ofBits .f32 0x45000000#32)

/-- The loss: the batch mean of half the sum of the two row means. -/
def loss (u v : Arr) : EReal :=
  Ideal.div (Ideal.ofBits .f32 0x00000000#32 + ∑ b : Fin 32, Ideal.ofBits .f32 0x3F000000#32 * (meanU u v b + meanV u v b))
    (Ideal.ofBits .f32 0x42000000#32)

/-- The square root on the extended reals is monotone: below zero it is the least element, from zero on the
    real square root, and +∞ at +∞. -/
theorem sqrt_mono : Monotone Ideal.sqrt := by
  intro x y hxy
  induction x using EReal.rec with
  | bot => exact bot_le
  | top => rw [top_le_iff.mp hxy]
  | coe r =>
    induction y using EReal.rec with
    | bot => exact absurd hxy (by simp)
    | top => exact le_top
    | coe s =>
      have hrs : r ≤ s := EReal.coe_le_coe_iff.mp hxy
      simp only [Ideal.sqrt_coe]
      by_cases hr : r < 0
      · rw [if_pos hr]; exact bot_le
      · rw [if_neg hr, if_neg (by linarith : ¬ s < 0)]
        exact EReal.coe_le_coe_iff.mpr (Real.sqrt_le_sqrt hrs)

/-- So it commutes with the minimum of two values, -/
theorem sqrt_min (x y : EReal) : Ideal.sqrt (min x y) = min (Ideal.sqrt x) (Ideal.sqrt y) := sqrt_mono.map_min

/-- and, +∞ being fixed, with the minimum from +∞ over any finite family. -/
theorem sqrt_fold_min {ι : Type} (s : Finset ι) (f : ι → EReal) :
    s.fold min posInf (fun k => Ideal.sqrt (f k)) = Ideal.sqrt (s.fold min posInf f) := by
  have htop : Ideal.sqrt posInf = posInf := by
    have : posInf = ⊤ := by simp [posInf, Ideal.ofBits, Ideal.ieee]
    rw [this]; rfl
  have := Finset.fold_hom (op := min) (op' := min) (s := s) (b := posInf) (f := f) (m := Ideal.sqrt) sqrt_min
  rw [htop] at this
  exact this

end Cert.ClosestPoint

end
-- ==== Proof.IdealBlocks.lean ====
/-
  The input blocks, entry by entry, in terms of the argument arrays.

  Before the call the host lines split each [32, 4096] argument into its x half and its y half ([32, 2048] each:
  row b, point n sits at entry n, respectively 2048 + n, of row b), and lay the u-cloud's halves out as columns
  [32, 2048, 1] and the v-cloud's as rows [32, 1, 2048]. Point t of the grid is tile t % 4 of batch row t / 4: the
  u-windows' block there is the whole column of row t / 4, the v-windows' block the 512 entries of the row from
  (t % 4) · 512 on.
-/
import proofs.«181670_j4939212390978_2_alg».proof.Proof.IdealFrame
import proofs.«181670_j4939212390978_2_alg».proof.Proof.ClosestPointSpec
import Idealize.ShloMosaic.Lib.ValueLayout
import Idealize.ShloMosaic.Lib.Pipeline.Value
import Idealize.ShloMosaic.Lib.StableHlo.Run

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.ClosestPoint

variable (m : (ℓ : Loc nD τ sig) → Buf (Elt Ideal) ℓ)

/-! ## The windows' index maps over the grid -/

/-- Every window's block index at point `t`: the batch row `t / 4` on the leading axis; the v-windows and the second
    output also the tile `t % 4` on the last. -/
theorem idx_facts : ∀ t : Fin cfg0.N,
    (win0_0.index t (0 : Fin 3) = t.val / 4 ∧ win0_0.index t (1 : Fin 3) = 0 ∧ win0_0.index t (2 : Fin 3) = 0)
    ∧ (win0_1.index t (0 : Fin 3) = t.val / 4 ∧ win0_1.index t (1 : Fin 3) = 0 ∧ win0_1.index t (2 : Fin 3) = 0)
    ∧ (win0_2.index t (0 : Fin 3) = t.val / 4 ∧ win0_2.index t (1 : Fin 3) = 0 ∧ win0_2.index t (2 : Fin 3) = t.val % 4)
    ∧ (win0_3.index t (0 : Fin 3) = t.val / 4 ∧ win0_3.index t (1 : Fin 3) = 0 ∧ win0_3.index t (2 : Fin 3) = t.val % 4)
    ∧ (win0_4.index t (0 : Fin 3) = t.val / 4 ∧ win0_4.index t (1 : Fin 3) = 0 ∧ win0_4.index t (2 : Fin 3) = 0)
    ∧ (win0_5.index t (0 : Fin 3) = t.val / 4 ∧ win0_5.index t (1 : Fin 3) = 0 ∧ win0_5.index t (2 : Fin 3) = t.val % 4) :=
  (by decide +kernel : ∀ t : Fin grid0.N, _)

/-! ## One coordinate's half of an argument, flattened -/

/-- The x half: the argument viewed [32, 2, 2048], its plane 0 cut out and flattened to [32, 2048], reads at (b, n)
    the argument at (b, n). -/
theorem halfX_apply (x : (⟨S32x4096, .f32⟩ : BufTy).Contents (Elt Ideal)) (b : Fin 32) (n : Fin 2048) :
    shapeCast S32x2048 (extractStridedSlice S32x1x2048 ![0, 0, 0] (shapeCast S32x2x2048 x shapeCasts_S32x4096_S32x2x2048)
        slices_S32x2x2048_S32x1x2048_0_0_0) shapeCasts_S32x1x2048_S32x2048 (ix2 b n) = px x b n := by
  rw [shapeCast_apply _ _ (ix2 b n) (ix3 b (0 : Fin 1) n) (by
    rw [Shape.rowMajor_val_three, Shape.rowMajor_val_two]; show (b.val * 1 + 0) * 2048 + n.val = b.val * 2048 + n.val; omega)]
  rw [slice3_axis1_apply 0 _ _ b (0 : Fin 1) n (0 : Fin 2) rfl]
  exact shapeCast_apply _ _ (ix3 b (0 : Fin 2) n) (ix2 b (⟨n.val, by omega⟩ : Fin 4096)) (by
    rw [Shape.rowMajor_val_three, Shape.rowMajor_val_two]; show b.val * 4096 + n.val = (b.val * 2 + 0) * 2048 + n.val; omega)

/-- The y half: plane 1 instead, reads at (b, n) the argument at (b, 2048 + n). -/
theorem halfY_apply (x : (⟨S32x4096, .f32⟩ : BufTy).Contents (Elt Ideal)) (b : Fin 32) (n : Fin 2048) :
    shapeCast S32x2048 (extractStridedSlice S32x1x2048 ![0, 1, 0] (shapeCast S32x2x2048 x shapeCasts_S32x4096_S32x2x2048)
        slices_S32x2x2048_S32x1x2048_0_1_0) shapeCasts_S32x1x2048_S32x2048 (ix2 b n) = py x b n := by
  rw [shapeCast_apply _ _ (ix2 b n) (ix3 b (0 : Fin 1) n) (by
    rw [Shape.rowMajor_val_three, Shape.rowMajor_val_two]; show (b.val * 1 + 0) * 2048 + n.val = b.val * 2048 + n.val; omega)]
  rw [slice3_axis1_apply 1 _ _ b (0 : Fin 1) n (1 : Fin 2) rfl]
  exact shapeCast_apply _ _ (ix3 b (1 : Fin 2) n) (ix2 b (⟨2048 + n.val, by omega⟩ : Fin 4096)) (by
    rw [Shape.rowMajor_val_three, Shape.rowMajor_val_two]; show b.val * 4096 + (2048 + n.val) = (b.val * 2 + 1) * 2048 + n.val; omega)

/-- A [32, 2048] array laid out as columns [32, 2048, 1] reads at (b, n, 0) its entry (b, n). -/
theorem asColumn_apply (z : (⟨S32x2048, .f32⟩ : BufTy).Contents (Elt Ideal)) (b : Fin 32) (n : Fin 2048) (u : Fin 1) :
    broadcastInDim S32x2048x1 ![0, 1] bcast_S32x2048_S32x2048x1_0_1 z (ix3 b n u) = z (ix2 b n) :=
  broadcastInDim_apply _ _ z (ix3 b n u) (ix2 b n) (fun a => by
    match a with
    | ⟨0, _⟩ => rfl
    | ⟨1, _⟩ => rfl)

/-- A [32, 2048] array laid out as rows [32, 1, 2048] reads at (b, 0, n) its entry (b, n). -/
theorem asRow_apply (z : (⟨S32x2048, .f32⟩ : BufTy).Contents (Elt Ideal)) (b : Fin 32) (u : Fin 1) (n : Fin 2048) :
    broadcastInDim S32x1x2048 ![0, 2] bcast_S32x2048_S32x1x2048_0_2 z (ix3 b u n) = z (ix2 b n) :=
  broadcastInDim_apply _ _ z (ix3 b u n) (ix2 b n) (fun a => by
    match a with
    | ⟨0, _⟩ => rfl
    | ⟨1, _⟩ => rfl)

/-! ## The four operand arrays as the region finds them -/

/-- The u-cloud's x column at (b, n, 0) is u's x-coordinate of point n of row b. -/
theorem uX_apply (c : Dev nD) (b : Fin 32) (n : Fin 2048) (u : Fin 1) :
    (V m c main_v10 : S32x2048x1.Idx → EReal) (ix3 b n u) = px (m ((c : Thread nD τ).loc main_arg0)) b n := by
  have e : (V m c main_v10 : S32x2048x1.Idx → EReal) = broadcastInDim S32x2048x1 ![0, 1] bcast_S32x2048_S32x2048x1_0_1
      (shapeCast S32x2048 (extractStridedSlice S32x1x2048 ![0, 0, 0] (shapeCast S32x2x2048 (m ((c : Thread nD τ).loc main_arg0)) shapeCasts_S32x4096_S32x2x2048)
        slices_S32x2x2048_S32x1x2048_0_0_0) shapeCasts_S32x1x2048_S32x2048) := by
    show StableHlo.after hostOps0 (fun b => m (c, b)) (Proc.devRef .tc main_v10) = _
    after_results; rfl
  rw [e, asColumn_apply, halfX_apply]

/-- The u-cloud's y column. -/
theorem uY_apply (c : Dev nD) (b : Fin 32) (n : Fin 2048) (u : Fin 1) :
    (V m c main_v11 : S32x2048x1.Idx → EReal) (ix3 b n u) = py (m ((c : Thread nD τ).loc main_arg0)) b n := by
  have e : (V m c main_v11 : S32x2048x1.Idx → EReal) = broadcastInDim S32x2048x1 ![0, 1] bcast_S32x2048_S32x2048x1_0_1
      (shapeCast S32x2048 (extractStridedSlice S32x1x2048 ![0, 1, 0] (shapeCast S32x2x2048 (m ((c : Thread nD τ).loc main_arg0)) shapeCasts_S32x4096_S32x2x2048)
        slices_S32x2x2048_S32x1x2048_0_1_0) shapeCasts_S32x1x2048_S32x2048) := by
    show StableHlo.after hostOps0 (fun b => m (c, b)) (Proc.devRef .tc main_v11) = _
    after_results; rfl
  rw [e, asColumn_apply, halfY_apply]

/-- The v-cloud's x row. -/
theorem vX_apply (c : Dev nD) (b : Fin 32) (u : Fin 1) (n : Fin 2048) :
    (V m c main_v12 : S32x1x2048.Idx → EReal) (ix3 b u n) = px (m ((c : Thread nD τ).loc main_arg1)) b n := by
  have e : (V m c main_v12 : S32x1x2048.Idx → EReal) = broadcastInDim S32x1x2048 ![0, 2] bcast_S32x2048_S32x1x2048_0_2
      (shapeCast S32x2048 (extractStridedSlice S32x1x2048 ![0, 0, 0] (shapeCast S32x2x2048 (m ((c : Thread nD τ).loc main_arg1)) shapeCasts_S32x4096_S32x2x2048)
        slices_S32x2x2048_S32x1x2048_0_0_0) shapeCasts_S32x1x2048_S32x2048) := by
    show StableHlo.after hostOps0 (fun b => m (c, b)) (Proc.devRef .tc main_v12) = _
    after_results; rfl
  rw [e, asRow_apply, halfX_apply]

/-- The v-cloud's y row. -/
theorem vY_apply (c : Dev nD) (b : Fin 32) (u : Fin 1) (n : Fin 2048) :
    (V m c main_v13 : S32x1x2048.Idx → EReal) (ix3 b u n) = py (m ((c : Thread nD τ).loc main_arg1)) b n := by
  have e : (V m c main_v13 : S32x1x2048.Idx → EReal) = broadcastInDim S32x1x2048 ![0, 2] bcast_S32x2048_S32x1x2048_0_2
      (shapeCast S32x2048 (extractStridedSlice S32x1x2048 ![0, 1, 0] (shapeCast S32x2x2048 (m ((c : Thread nD τ).loc main_arg1)) shapeCasts_S32x4096_S32x2x2048)
        slices_S32x2x2048_S32x1x2048_0_1_0) shapeCasts_S32x1x2048_S32x2048) := by
    show StableHlo.after hostOps0 (fun b => m (c, b)) (Proc.devRef .tc main_v13) = _
    after_results; rfl
  rw [e, asRow_apply, halfY_apply]

/-! ## The blocks at a point -/

/-- The batch row of point `t`. -/
abbrev rowOf (t : Fin cfg0.N) : Fin 32 := ⟨t.val / 4, by have := lt_of_lt_of_eq t.isLt (show cfg0.N = 128 from N_0); omega⟩
/-- The v-point that lane `j` of point `t`'s tile holds. -/
abbrev laneOf (t : Fin cfg0.N) (j : Fin 512) : Fin 2048 := ⟨t.val % 4 * 512 + j.val, by have := j.isLt; omega⟩

/-- The u-windows' x block at point `t`, entry `i`: u's x-coordinate of point `i` of the point's batch row. -/
theorem blockUX_apply (c : Dev nD) (t : Fin cfg0.N) (i : Fin 2048) :
    (iblk m c 0 t : Vec Ideal S1x2048x1 .f32) (ix3 (0 : Fin 1) i (0 : Fin 1)) = px (m ((c : Thread nD τ).loc main_arg0)) (rowOf t) i := by
  obtain ⟨⟨e0, e1, e2⟩, -⟩ := idx_facts t
  unfold iblk
  rw [View.read_apply]
  have he : ((cfg0.win 0).blk t).view.emb (ix3 (0 : Fin 1) i (0 : Fin 1)) = (ix3 (rowOf t) i (0 : Fin 1) : S32x2048x1.Idx) := by
    funext a; apply Fin.ext
    match a with
    | ⟨0, _⟩ => show win0_0.index t (0 : Fin 3) * 1 + 1 * 0 = t.val / 4; omega
    | ⟨1, _⟩ => show win0_0.index t (1 : Fin 3) * 2048 + 1 * i.val = i.val; omega
    | ⟨2, _⟩ => show win0_0.index t (2 : Fin 3) * 1 + 1 * 0 = 0; omega
  rw [he]
  exact uX_apply m c (rowOf t) i 0

/-- The u-windows' y block. -/
theorem blockUY_apply (c : Dev nD) (t : Fin cfg0.N) (i : Fin 2048) :
    (iblk m c 1 t : Vec Ideal S1x2048x1 .f32) (ix3 (0 : Fin 1) i (0 : Fin 1)) = py (m ((c : Thread nD τ).loc main_arg0)) (rowOf t) i := by
  obtain ⟨-, ⟨e0, e1, e2⟩, -⟩ := idx_facts t
  unfold iblk
  rw [View.read_apply]
  have he : ((cfg0.win 1).blk t).view.emb (ix3 (0 : Fin 1) i (0 : Fin 1)) = (ix3 (rowOf t) i (0 : Fin 1) : S32x2048x1.Idx) := by
    funext a; apply Fin.ext
    match a with
    | ⟨0, _⟩ => show win0_1.index t (0 : Fin 3) * 1 + 1 * 0 = t.val / 4; omega
    | ⟨1, _⟩ => show win0_1.index t (1 : Fin 3) * 2048 + 1 * i.val = i.val; omega
    | ⟨2, _⟩ => show win0_1.index t (2 : Fin 3) * 1 + 1 * 0 = 0; omega
  rw [he]
  exact uY_apply m c (rowOf t) i 0

/-- The v-windows' x block at point `t`, lane `j`: v's x-coordinate of point (t % 4) · 512 + j of the batch row. -/
theorem blockVX_apply (c : Dev nD) (t : Fin cfg0.N) (j : Fin 512) :
    (iblk m c 2 t : Vec Ideal S1x1x512 .f32) (ix3 (0 : Fin 1) (0 : Fin 1) j) = px (m ((c : Thread nD τ).loc main_arg1)) (rowOf t) (laneOf t j) := by
  obtain ⟨-, -, ⟨e0, e1, e2⟩, -⟩ := idx_facts t
  unfold iblk
  rw [View.read_apply]
  have he : ((cfg0.win 2).blk t).view.emb (ix3 (0 : Fin 1) (0 : Fin 1) j) = (ix3 (rowOf t) (0 : Fin 1) (laneOf t j) : S32x1x2048.Idx) := by
    funext a; apply Fin.ext
    match a with
    | ⟨0, _⟩ => show win0_2.index t (0 : Fin 3) * 1 + 1 * 0 = t.val / 4; omega
    | ⟨1, _⟩ => show win0_2.index t (1 : Fin 3) * 1 + 1 * 0 = 0; omega
    | ⟨2, _⟩ => show win0_2.index t (2 : Fin 3) * 512 + 1 * j.val = t.val % 4 * 512 + j.val; omega
  rw [he]
  exact vX_apply m c (rowOf t) 0 (laneOf t j)

/-- The v-windows' y block. -/
theorem blockVY_apply (c : Dev nD) (t : Fin cfg0.N) (j : Fin 512) :
    (iblk m c 3 t : Vec Ideal S1x1x512 .f32) (ix3 (0 : Fin 1) (0 : Fin 1) j) = py (m ((c : Thread nD τ).loc main_arg1)) (rowOf t) (laneOf t j) := by
  obtain ⟨-, -, -, ⟨e0, e1, e2⟩, -⟩ := idx_facts t
  unfold iblk
  rw [View.read_apply]
  have he : ((cfg0.win 3).blk t).view.emb (ix3 (0 : Fin 1) (0 : Fin 1) j) = (ix3 (rowOf t) (0 : Fin 1) (laneOf t j) : S32x1x2048.Idx) := by
    funext a; apply Fin.ext
    match a with
    | ⟨0, _⟩ => show win0_3.index t (0 : Fin 3) * 1 + 1 * 0 = t.val / 4; omega
    | ⟨1, _⟩ => show win0_3.index t (1 : Fin 3) * 1 + 1 * 0 = 0; omega
    | ⟨2, _⟩ => show win0_3.index t (2 : Fin 3) * 512 + 1 * j.val = t.val % 4 * 512 + j.val; omega
  rw [he]
  exact vY_apply m c (rowOf t) 0 (laneOf t j)

end Cert.KernelIdeal.Body

end
-- ==== Proof.IdealCaseValues.lean ====
/-
  What each control case leaves in the two output buffers, as values: the one covering store's payload of the four
  input blocks (and, at a later tile, of the first output's running contents).
-/
import proofs.«181670_j4939212390978_2_alg».proof.Proof.IdealFrame
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz3 : (![0, 0, 0] : Fin 3 → Nat) = fun _ => 0 := funext fun a => by fin_cases a <;> rfl

/-- A row's first tile leaves the tile's row minima in the first output's buffer. -/
theorem outFirst4_eq (c : Dev nD) (i : grid0.Coords) (arg2 : Memref sig .tc .vmem S1x2048x1 .f32) (harg2 : arg2.IsWhole) (arg3 : Memref sig .tc .vmem S1x2048x1 .f32) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x2048x1 .f32) (harg6 : arg6.IsWhole) (arg7 : Memref sig .tc .vmem S1x1x512 .f32) (harg7 : arg7.IsWhole)
    (hc1 : k0_cond1 i = 1#1) (hc2 : ¬k0_cond2 i = 1#1) (x0 x1 : Vec F S1x2048x1 .f32) (x2 x3 : Vec F S1x1x512 .f32) :
    outFirst4 c i arg2 harg2 arg3 harg3 arg4 harg4 arg5 harg5 arg6 harg6 arg7 harg7 hc1 hc2 x0 x1 x2 x3 = k0_pay4 x0 x1 x2 x3 := by
  unfold outFirst4
  rw [View.read_writes_eq_canon _ _ _ (coverFirst4 c i arg2 harg2 arg3 harg3 arg4 harg4 arg5 harg5 arg6 harg6 arg7 harg7 hc1 hc2 x0 x1 x2 x3)]
  unfold runFirst
  dsimp only
  rw [View.canon_unit_zero hz3]
  simp only [View.readAt_eq_ld, harg2.read_unread, harg3.read_unread, harg4.read_unread, harg5.read_unread,
    View.ld_unit_zero (S := S1x2048x1) hz3, View.ld_unit_zero (S := S1x1x512) hz3]

/-- and the tile's column minima in the second's. -/
theorem outFirst5_eq (c : Dev nD) (i : grid0.Coords) (arg2 : Memref sig .tc .vmem S1x2048x1 .f32) (harg2 : arg2.IsWhole) (arg3 : Memref sig .tc .vmem S1x2048x1 .f32) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x2048x1 .f32) (harg6 : arg6.IsWhole) (arg7 : Memref sig .tc .vmem S1x1x512 .f32) (harg7 : arg7.IsWhole)
    (hc1 : k0_cond1 i = 1#1) (hc2 : ¬k0_cond2 i = 1#1) (x0 x1 : Vec F S1x2048x1 .f32) (x2 x3 : Vec F S1x1x512 .f32) :
    outFirst5 c i arg2 harg2 arg3 harg3 arg4 harg4 arg5 harg5 arg6 harg6 arg7 harg7 hc1 hc2 x0 x1 x2 x3 = k0_pay3 x0 x1 x2 x3 := by
  unfold outFirst5
  rw [View.read_writes_eq_canon _ _ _ (coverFirst5 c i arg2 harg2 arg3 harg3 arg4 harg4 arg5 harg5 arg6 harg6 arg7 harg7 hc1 hc2 x0 x1 x2 x3)]
  unfold runFirst
  dsimp only
  rw [View.canon_unit_zero hz3]
  simp only [View.readAt_eq_ld, harg2.read_unread, harg3.read_unread, harg4.read_unread, harg5.read_unread,
    View.ld_unit_zero (S := S1x2048x1) hz3, View.ld_unit_zero (S := S1x1x512) hz3]

/-- A later tile leaves, over the running contents `xo`, their minimum with the tile's row minima. -/
theorem outLater4_eq (c : Dev nD) (i : grid0.Coords) (arg2 : Memref sig .tc .vmem S1x2048x1 .f32) (harg2 : arg2.IsWhole) (arg3 : Memref sig .tc .vmem S1x2048x1 .f32) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x2048x1 .f32) (harg6 : arg6.IsWhole) (arg7 : Memref sig .tc .vmem S1x1x512 .f32) (harg7 : arg7.IsWhole)
    (hc1 : ¬k0_cond1 i = 1#1) (hc2 : k0_cond2 i = 1#1) (x0 x1 : Vec F S1x2048x1 .f32) (x2 x3 : Vec F S1x1x512 .f32) (xo : Vec F S1x2048x1 .f32) :
    outLater4 c i arg2 harg2 arg3 harg3 arg4 harg4 arg5 harg5 arg6 harg6 arg7 harg7 hc1 hc2 x0 x1 x2 x3 xo = k0_pay5 x0 x1 x2 x3 xo := by
  unfold outLater4
  rw [View.read_writes_eq_canon _ _ _ (coverLater4 c i arg2 harg2 arg3 harg3 arg4 harg4 arg5 harg5 arg6 harg6 arg7 harg7 hc1 hc2 x0 x1 x2 x3 xo)]
  unfold runLater
  dsimp only
  rw [View.canon_unit_zero hz3]
  simp only [View.readAt_eq_ld, harg2.read_unread, harg3.read_unread, harg4.read_unread, harg5.read_unread, harg6.read_unread,
    View.ld_unit_zero (S := S1x2048x1) hz3, View.ld_unit_zero (S := S1x1x512) hz3]

/-- and the tile's column minima in the second output's buffer. -/
theorem outLater5_eq (c : Dev nD) (i : grid0.Coords) (arg2 : Memref sig .tc .vmem S1x2048x1 .f32) (harg2 : arg2.IsWhole) (arg3 : Memref sig .tc .vmem S1x2048x1 .f32) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x2048x1 .f32) (harg6 : arg6.IsWhole) (arg7 : Memref sig .tc .vmem S1x1x512 .f32) (harg7 : arg7.IsWhole)
    (hc1 : ¬k0_cond1 i = 1#1) (hc2 : k0_cond2 i = 1#1) (x0 x1 : Vec F S1x2048x1 .f32) (x2 x3 : Vec F S1x1x512 .f32) (xo : Vec F S1x2048x1 .f32) :
    outLater5 c i arg2 harg2 arg3 harg3 arg4 harg4 arg5 harg5 arg6 harg6 arg7 harg7 hc1 hc2 x0 x1 x2 x3 xo = k0_pay3 x0 x1 x2 x3 := by
  unfold outLater5
  rw [View.read_writes_eq_canon _ _ _ (coverLater5 c i arg2 harg2 arg3 harg3 arg4 harg4 arg5 harg5 arg6 harg6 arg7 harg7 hc1 hc2 x0 x1 x2 x3 xo)]
  unfold runLater
  dsimp only
  rw [View.canon_unit_zero hz3]
  simp only [View.readAt_eq_ld, harg2.read_unread, harg3.read_unread, harg4.read_unread, harg5.read_unread, harg6.read_unread,
    View.ld_unit_zero (S := S1x2048x1) hz3, View.ld_unit_zero (S := S1x1x512) hz3]

end Cert.KernelIdeal.Body

end
-- ==== Proof.LibColumnForms.lean ====
/-
  Column ("keepdims") forms of two layout operations, read at an index. The library reads a vector cast to a ROW
  [1, a] and a row [1, b] broadcast over many rows; these are the same two facts for a COLUMN: a vector of length `a`
  cast to [a, 1], and a column [a, 1] broadcast over `b` lanes.
-/
import Idealize.ShloMosaic.Lib.Pipeline.Value
import Idealize.ShloMosaic.Lib.ValueIdx

namespace Idealize.ShloMosaic.ValueLayout

open Idealize.ShloMosaic Idealize.ShloMosaic.ValueIdx

variable {α : Type}

/-- An `[a]` array cast to the column `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueLayout
-- ==== Proof.LibMinReduce.lean ====
/-
  A float minimum-reduction over ONE axis, read on the extended reals: at each reduced index it is the fold of
  `min`, from the accumulator's value, over that axis's coordinates — the minimum twin of the library's reading
  of a maximum-reduction. With it, the reduced index of a matrix with the dropped coordinate put back, written by
  coordinates: a row's index (i, k) and a column's index (k, j).
-/
import Idealize.ShloMosaic.PureOps.Ideal.Laws
import Idealize.ShloMosaic.PureOps.Reduce
import Idealize.ShloMosaic.Lib.ValueIdx

namespace Idealize.ShloMosaic.Ideal

open Idealize.ShloMosaic

variable {φ : FTy}

/-- A float `vector.multi_reduction <minimumf>` over one axis, on the extended reals: the fold of `min` from the
    accumulator's value over that axis's coordinates (a row's or a column's minimum). -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

end Idealize.ShloMosaic.Ideal

namespace Idealize.ShloMosaic.ValueIdx

open Idealize.ShloMosaic

/-- Reducing the LAST axis of a matrix: the reduced index `i` with column `k` put back is (i, k). -/
theorem lift_last_ix2 {m n : Nat} (h : (⟨2, ![m, n]⟩ : Shape).Reduces [1] (⟨1, ![m]⟩ : Shape)) (i : Fin m)
    (k : Fin ((⟨2, ![m, n]⟩ : Shape).size 1)) : h.lift (ix1 i) k = ix2 i (⟨k.val, k.isLt⟩ : Fin n) := by
  funext c; apply Fin.ext
  fin_cases c <;> rfl

/-- Reducing the FIRST axis of a matrix: the reduced index `j` with row `k` put back is (k, j). -/
theorem lift_first_ix2 {m n : Nat} (h : (⟨2, ![m, n]⟩ : Shape).Reduces [0] (⟨1, ![n]⟩ : Shape)) (j : Fin n)
    (k : Fin ((⟨2, ![m, n]⟩ : Shape).size 0)) : h.lift (ix1 j) k = ix2 (⟨k.val, k.isLt⟩ : Fin m) j := by
  funext c; apply Fin.ext
  fin_cases c <;> rfl

end Idealize.ShloMosaic.ValueIdx
-- ==== Proof.IdealPayload.lean ====
/-
  The body's arithmetic read at an index, on the extended reals.

  From the four input blocks — the u-points' x and y columns `x0`, `x1` (2048 entries each) and one v-tile's x and y
  rows `x2`, `x3` (512 entries each) — the body forms the 2048 × 512 block of squared distances
  (x0ᵢ - x2ⱼ)² + (x1ᵢ - x3ⱼ)². Its row minima (over the tile's 512 v-points, from +∞) go to the first output, alone
  at a row's first tile and folded by `min` with the buffer's running contents at a later one; its column minima
  (over all 2048 u-points, from +∞) go to the second output.
-/
import proofs.«181670_j4939212390978_2_alg».proof.Proof.Gen.KernelIdeal.Skeleton
import proofs.«181670_j4939212390978_2_alg».proof.Proof.LibColumnForms
import proofs.«181670_j4939212390978_2_alg».proof.Proof.LibMinReduce
import Idealize.ShloMosaic.Lib.ValueLayout
import Idealize.ShloMosaic.Lib.ValueIdx
import Idealize.ShloMosaic.Lib.Pipeline.Value

noncomputable section

namespace Cert.KernelIdeal.Payload

open Cert.KernelIdeal Cert.KernelIdeal.Gen
open Idealize.ShloMosaic Idealize.ShloMosaic.ValueIdx Idealize.ShloMosaic.ValueLayout

variable (x0 x1 : Vec Ideal S1x2048x1 .f32) (x2 x3 : Vec Ideal S1x1x512 .f32)

/-- The squared distance between u-point `i` and the tile's v-point `j`, from the blocks' entries. -/
def sq (i : Fin 2048) (j : Fin 512) : EReal :=
  (x0 (ix3 (0 : Fin 1) i (0 : Fin 1)) - x2 (ix3 (0 : Fin 1) (0 : Fin 1) j)) * (x0 (ix3 (0 : Fin 1) i (0 : Fin 1)) - x2 (ix3 (0 : Fin 1) (0 : Fin 1) j))
    + (x1 (ix3 (0 : Fin 1) i (0 : Fin 1)) - x3 (ix3 (0 : Fin 1) (0 : Fin 1) j)) * (x1 (ix3 (0 : Fin 1) i (0 : Fin 1)) - x3 (ix3 (0 : Fin 1) (0 : Fin 1) j))

/-- The block of squared distances at (i, j): the columns broadcast along the lanes, the rows along the sublanes. -/
theorem sqBlock_apply (i : Fin 2048) (j : Fin 512) : k0_pay1 x0 x1 x2 x3 (ix2 i j) = sq x0 x1 x2 x3 i j := by
  unfold k0_pay1 sq
  simp only [addf_apply, mulf_apply, subf_apply, broadcastTo_a1_ab_apply, broadcastTo_1b_ab_apply, shapeCast_1ab_ab_apply]

/-- The row minima at row `i`: the minimum from +∞ over the tile's 512 v-points. -/
theorem rowMin_apply (i : Fin 2048) :
    k0_pay2 x0 x1 x2 x3 (ix2 i (0 : Fin 1))
      = (Finset.univ : Finset (Fin 512)).fold min (Ideal.ofBits .f32 0x7F800000#32) (fun j => sq x0 x1 x2 x3 i j) := by
  unfold k0_pay2
  rw [shapeCast_a_a1_apply]
  refine (Ideal.multiReduction_minimumf_single (k0_pay1 x0 x1 x2 x3) 0x7F800000#32 reduces_S2048x512_S2048 (.inl rfl) rfl (ix1 i)).trans ?_
  have hf : (k0_pay1 x0 x1 x2 x3 ∘ reduces_S2048x512_S2048.lift (ix1 i)) = fun j : Fin 512 => sq x0 x1 x2 x3 i j :=
    funext fun k => (congrArg (k0_pay1 x0 x1 x2 x3) (lift_last_ix2 reduces_S2048x512_S2048 i k)).trans (sqBlock_apply x0 x1 x2 x3 i _)
  exact congrArg (fun f => Finset.fold min (Ideal.ofBits .f32 0x7F800000#32) f (Finset.univ : Finset (Fin 512))) hf

/-- The column minima at column `j`: the minimum from +∞ over all 2048 u-points. -/
theorem colMin_apply (j : Fin 512) :
    k0_pay3 x0 x1 x2 x3 (ix3 (0 : Fin 1) (0 : Fin 1) j)
      = (Finset.univ : Finset (Fin 2048)).fold min (Ideal.ofBits .f32 0x7F800000#32) (fun i => sq x0 x1 x2 x3 i j) := by
  unfold k0_pay3
  rw [shapeCast_ab_1ab_apply, shapeCast_a_1a_apply]
  refine (Ideal.multiReduction_minimumf_single (k0_pay1 x0 x1 x2 x3) 0x7F800000#32 reduces_S2048x512_S512 (.inl rfl) rfl (ix1 j)).trans ?_
  have hf : (k0_pay1 x0 x1 x2 x3 ∘ reduces_S2048x512_S512.lift (ix1 j)) = fun i : Fin 2048 => sq x0 x1 x2 x3 i j :=
    funext fun k => (congrArg (k0_pay1 x0 x1 x2 x3) (lift_first_ix2 reduces_S2048x512_S512 j k)).trans (sqBlock_apply x0 x1 x2 x3 _ j)
  exact congrArg (fun f => Finset.fold min (Ideal.ofBits .f32 0x7F800000#32) f (Finset.univ : Finset (Fin 2048))) hf

/-- What a row's first tile stores into the first output: the row minima. -/
theorem storeFirst_apply (i : Fin 2048) :
    k0_pay4 x0 x1 x2 x3 (ix3 (0 : Fin 1) i (0 : Fin 1)) = k0_pay2 x0 x1 x2 x3 (ix2 i (0 : Fin 1)) := by
  unfold k0_pay4
  rw [shapeCast_ab_1ab_apply]

/-- What a later tile stores: the minimum of the buffer's running contents `xo` and the tile's row minima. -/
theorem storeLater_apply (xo : Vec Ideal S1x2048x1 .f32) (i : Fin 2048) :
    k0_pay5 x0 x1 x2 x3 xo (ix3 (0 : Fin 1) i (0 : Fin 1))
      = min (xo (ix3 (0 : Fin 1) i (0 : Fin 1))) (k0_pay2 x0 x1 x2 x3 (ix2 i (0 : Fin 1))) := by
  unfold k0_pay5
  rw [shapeCast_ab_1ab_apply, minimumf_apply, shapeCast_1ab_ab_apply]

end Cert.KernelIdeal.Payload

end
-- ==== Proof.IdealOutputs.lean ====
/-
  The two output arrays after the run, as functions of the argument arrays.

  Within batch row b the first output's buffer carries a running minimum over the v-tiles seen so far: after tile k
  its entry i is the least squared distance from u-point i to the v-points j < 512 · (k + 1). This is stated by the
  universal property of the minimum — a bound lies below the entry exactly when it lies below each of those
  distances — and proved by induction on the grid point: a first tile starts the fold from +∞, a later tile takes
  the minimum with what the tile before left. After the fourth tile every v-point has been seen, so the entry is
  the distance to the nearest v-point; that is the block written back. The second output's block at a point is
  the tile's column minima over all u-points: the distance from each of the tile's v-points to its nearest u-point.
  Every entry of either array lies in exactly such a written-back block, so the arrays end as those two functions.
-/
import proofs.«181670_j4939212390978_2_alg».proof.Proof.IdealBlocks
import proofs.«181670_j4939212390978_2_alg».proof.Proof.IdealCaseValues
import proofs.«181670_j4939212390978_2_alg».proof.Proof.IdealPayload

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.ClosestPoint Cert.KernelIdeal.Payload
open Idealize.ShloMosaic.Pipeline (Dat)

variable (m : (ℓ : Loc nD τ sig) → Buf (Elt Ideal) ℓ)

/-- The word of +∞ is the top of the extended reals. -/
theorem posInf_top : Ideal.ofBits .f32 0x7F800000#32 = (⊤ : EReal) := by simp [Ideal.ofBits, Ideal.ieee]

/-- The tile's block of squared distances, in terms of the clouds: row `i`, lane `j` of point `t` is the squared
    distance between u-point `i` and v-point (t % 4) · 512 + j of batch row t / 4. -/
theorem sq_blocks (c : Dev nD) (t : Fin cfg0.N) (i : Fin 2048) (j : Fin 512) :
    Payload.sq (iblk m c 0 t) (iblk m c 1 t) (iblk m c 2 t) (iblk m c 3 t) i j = sqDist (m ((c : Thread nD τ).loc main_arg0)) (m ((c : Thread nD τ).loc main_arg1)) (rowOf t) i (laneOf t j) := by
  unfold Payload.sq sqDist
  rw [blockUX_apply, blockUY_apply, blockVX_apply, blockVY_apply]

/-- A bound lies below the tile's row minimum at row `i` exactly when it lies below every squared distance from
    u-point `i` to the tile's v-points. -/
theorem rowMin_bound (c : Dev nD) (t : Fin cfg0.N) (i : Fin 2048) (x : EReal) :
    x ≤ k0_pay2 (iblk m c 0 t) (iblk m c 1 t) (iblk m c 2 t) (iblk m c 3 t) (ix2 i (0 : Fin 1))
      ↔ ∀ j : Fin 512, x ≤ sqDist (m ((c : Thread nD τ).loc main_arg0)) (m ((c : Thread nD τ).loc main_arg1)) (rowOf t) i (laneOf t j) := by
  rw [rowMin_apply, Finset.le_fold_min, posInf_top]
  constructor
  · rintro ⟨-, h⟩ j; rw [← sq_blocks]; exact h j (Finset.mem_univ j)
  · intro h; exact ⟨le_top, fun j _ => by rw [sq_blocks]; exact h j⟩

/-- Bounds over the first k tiles and over tile k together are bounds over the first k + 1 tiles. -/
theorem le_tiles (D : Fin 2048 → EReal) (k : ℕ) (hk : k < 4) (x : EReal) :
    ((∀ j : Fin 2048, j.val < 512 * k → x ≤ D j) ∧ ∀ j : Fin 512, x ≤ D (⟨k * 512 + j.val, by have := j.isLt; omega⟩ : Fin 2048))
      ↔ ∀ j : Fin 2048, j.val < 512 * (k + 1) → x ≤ D j := by
  constructor
  · rintro ⟨h1, h2⟩ j hj
    by_cases hlt : j.val < 512 * k
    · exact h1 j hlt
    · have h := h2 (⟨j.val - k * 512, by omega⟩ : Fin 512)
      have e : (⟨k * 512 + (j.val - k * 512), by omega⟩ : Fin 2048) = j := Fin.ext (by show k * 512 + (j.val - k * 512) = j.val; omega)
      rw [e] at h; exact h
  · intro h
    exact ⟨fun j hj => h j (by omega), fun j => h _ (by show k * 512 + j.val < 512 * (k + 1); have := j.isLt; omega)⟩

/-- THE RUNNING MINIMUM. After the body at position `n` a bound lies below entry `i` of the first output's buffer
    exactly when it lies below every squared distance from u-point `i` to the v-points seen so far in the row. -/
theorem accAt_bound (c : Dev nD) : ∀ (n : ℕ) (hn : n < cfg0.N) (i : Fin 2048) (x : EReal),
    x ≤ accAt m c n hn (ix3 (0 : Fin 1) i (0 : Fin 1))
      ↔ ∀ j : Fin 2048, j.val < 512 * (n % 4 + 1) → x ≤ sqDist (m ((c : Thread nD τ).loc main_arg0)) (m ((c : Thread nD τ).loc main_arg1)) (rowOf ⟨n, hn⟩) i j := by
  intro n
  induction n with
  | zero =>
    intro hn i x
    have h0 : (⟨0, hn⟩ : Fin cfg0.N).val % 4 = 0 := rfl
    have e := accAt_first m c ⟨0, hn⟩ h0
    rw [show accAt m c 0 hn = _ from e, outFirst4_eq, storeFirst_apply, rowMin_bound]
    rw [← le_tiles (fun j => sqDist (m ((c : Thread nD τ).loc main_arg0)) (m ((c : Thread nD τ).loc main_arg1)) (rowOf ⟨0, hn⟩) i j) 0 (by omega) x]
    constructor
    · intro h; exact ⟨fun j hj => absurd hj (by omega), fun j => h j⟩
    · rintro ⟨-, h⟩ j; exact h j
  | succ n ih =>
    intro hn i x
    by_cases h0 : (n + 1) % 4 = 0
    · have e := accAt_first m c ⟨n + 1, hn⟩ h0
      rw [show accAt m c (n + 1) hn = _ from e, outFirst4_eq, storeFirst_apply, rowMin_bound]
      rw [h0, ← le_tiles (fun j => sqDist (m ((c : Thread nD τ).loc main_arg0)) (m ((c : Thread nD τ).loc main_arg1)) (rowOf ⟨n + 1, hn⟩) i j) 0 (by omega) x]
      constructor
      · intro h
        refine ⟨fun j hj => absurd hj (by omega), fun j => ?_⟩
        have := h j
        rw [show laneOf (⟨n + 1, hn⟩ : Fin cfg0.N) j = (⟨0 * 512 + j.val, by have := j.isLt; omega⟩ : Fin 2048) from
          Fin.ext (by show (n + 1) % 4 * 512 + j.val = 0 * 512 + j.val; rw [h0])] at this
        exact this
      · rintro ⟨-, h⟩ j
        rw [show laneOf (⟨n + 1, hn⟩ : Fin cfg0.N) j = (⟨0 * 512 + j.val, by have := j.isLt; omega⟩ : Fin 2048) from
          Fin.ext (by show (n + 1) % 4 * 512 + j.val = 0 * 512 + j.val; rw [h0])]
        exact h j
    · have e := accAt_later m c ⟨n + 1, hn⟩ h0
      rw [show accAt m c (n + 1) hn = _ from e, outLater4_eq, storeLater_apply, le_min_iff, rowMin_bound]
      have hrow : rowOf (⟨n, Nat.lt_of_succ_lt hn⟩ : Fin cfg0.N) = rowOf (⟨n + 1, hn⟩ : Fin cfg0.N) :=
        Fin.ext (by show n / 4 = (n + 1) / 4; omega)
      have hk : n % 4 + 1 = (n + 1) % 4 := by omega
      have ih' := ih (Nat.lt_of_succ_lt hn) i x
      rw [hrow, hk] at ih'
      rw [show accAt m c ((⟨n + 1, hn⟩ : Fin cfg0.N).val - 1) _ = accAt m c n (Nat.lt_of_succ_lt hn) from rfl, ih']
      rw [← le_tiles (fun j => sqDist (m ((c : Thread nD τ).loc main_arg0)) (m ((c : Thread nD τ).loc main_arg1)) (rowOf ⟨n + 1, hn⟩) i j) ((n + 1) % 4) (by omega) x]

/-- After a row's fourth tile the buffer's entry `i` is the squared distance from u-point `i` to its nearest v-point. -/
theorem accAt_last (c : Dev nD) (t : Fin cfg0.N) (h3 : t.val % 4 = 3) (i : Fin 2048) :
    accAt m c t.val t.isLt (ix3 (0 : Fin 1) i (0 : Fin 1)) = nearestV (m ((c : Thread nD τ).loc main_arg0)) (m ((c : Thread nD τ).loc main_arg1)) (rowOf t) i := by
  refine eq_of_forall_le_iff fun x => ?_
  rw [accAt_bound m c t.val t.isLt i x, nearestV, Finset.le_fold_min, posInf, posInf_top, h3]
  constructor
  · intro h; exact ⟨le_top, fun j _ => h j (by have := j.isLt; omega)⟩
  · rintro ⟨-, h⟩ j _; exact h j (Finset.mem_univ j)

/-- Whichever case the point is in, the second output's buffer ends at the tile's column minima. -/
theorem colsAt_eq (c : Dev nD) (t : Fin cfg0.N) :
    colsAt m c t = k0_pay3 (iblk m c 0 t) (iblk m c 1 t) (iblk m c 2 t) (iblk m c 3 t) := by
  unfold colsAt
  split
  · exact outFirst5_eq ..
  · exact outLater5_eq ..

/-- Lane `j` of it is the squared distance from the tile's v-point `j` to its nearest u-point. -/
theorem colsAt_apply (c : Dev nD) (t : Fin cfg0.N) (j : Fin 512) :
    colsAt m c t (ix3 (0 : Fin 1) (0 : Fin 1) j) = nearestU (m ((c : Thread nD τ).loc main_arg0)) (m ((c : Thread nD τ).loc main_arg1)) (rowOf t) (laneOf t j) := by
  rw [colsAt_eq, colMin_apply]
  unfold nearestU posInf
  exact congrArg (fun f => Finset.fold min (Ideal.ofBits .f32 0x7F800000#32) f (Finset.univ : Finset (Fin 2048)))
    (funext fun i => sq_blocks m c t i j)

/-! ## From blocks to the arrays -/

/-- The first output array: entry (b, i, 0) the squared distance from u-point i of row b to its nearest v-point. -/
def nearV (c : Dev nD) : S32x2048x1.Idx → EReal :=
  fun y => nearestV (m ((c : Thread nD τ).loc main_arg0)) (m ((c : Thread nD τ).loc main_arg1)) (⟨(y 0).val, (y 0).isLt⟩ : Fin 32) (⟨(y 1).val, (y 1).isLt⟩ : Fin 2048)
/-- The second: entry (b, 0, j) the squared distance from v-point j of row b to its nearest u-point. -/
def nearU (c : Dev nD) : S32x1x2048.Idx → EReal :=
  fun y => nearestU (m ((c : Thread nD τ).loc main_arg0)) (m ((c : Thread nD τ).loc main_arg1)) (⟨(y 0).val, (y 0).isLt⟩ : Fin 32) (⟨(y 2).val, (y 2).isLt⟩ : Fin 2048)

/-- What a row's fourth tile writes back is its block of the first array. -/
theorem flushed4_eq (c : Dev nD) (t : Fin cfg0.N) (hf : (cfg0.win 4).flush t = true) :
    (dats m 0 c).flushed 4 t = ((cfg0.win 4).blk t).view.read (Elt Ideal) (nearV m c) := by
  have h3 : t.val % 4 = 3 := (flush0_4 t).mp hf
  obtain ⟨-, -, -, -, ⟨e0, e1, e2⟩, -⟩ := idx_facts t
  show (cfg0.win 4).cut (grid0.coords t) ((dats m 0 c).after 4 t) = _
  rw [after4]
  funext y
  obtain ⟨p, i, q, rfl⟩ : ∃ (p : Fin 1) (i : Fin 2048) (q : Fin 1), y = ix3 p i q := ⟨y 0, y 1, y 2, eq_ix3 y⟩
  obtain rfl : p = 0 := Subsingleton.elim _ _
  obtain rfl : q = 0 := Subsingleton.elim _ _
  rw [View.read_apply]
  have he : ((cfg0.win 4).blk t).view.emb (ix3 (0 : Fin 1) i (0 : Fin 1)) = (ix3 (rowOf t) i (0 : Fin 1) : S32x2048x1.Idx) := by
    funext a; apply Fin.ext
    match a with
    | ⟨0, _⟩ => show win0_4.index t (0 : Fin 3) * 1 + 1 * 0 = t.val / 4; omega
    | ⟨1, _⟩ => show win0_4.index t (1 : Fin 3) * 2048 + 1 * i.val = i.val; omega
    | ⟨2, _⟩ => show win0_4.index t (2 : Fin 3) * 1 + 1 * 0 = 0; omega
  rw [he]
  exact accAt_last m c t h3 i

/-- Every entry of the first array is in the block of its row's fourth tile. -/
theorem final4 (c : Dev nD) : (dats m 0 c).arrAt 4 cfg0.N = nearV m c :=
  (dats m 0 c).arrAt_eq_of_cover 4 (nearV m c) (flushed4_eq m c) fun y => by
    have hN : cfg0.N = 128 := N_0
    have hy0 : (y 0).val < 32 := (y 0).isLt
    have hy1 : (y 1).val < 2048 := (y 1).isLt
    have hy2 : (y 2).val < 1 := (y 2).isLt
    let t : Fin cfg0.N := ⟨4 * (y 0).val + 3, by omega⟩
    obtain ⟨-, -, -, -, ⟨e0, e1, e2⟩, -⟩ := idx_facts t
    have ht : t.val = 4 * (y 0).val + 3 := rfl
    refine ⟨t, (flush0_4 t).mpr (by omega), ?_⟩
    show y ∈ ((View.whole main_v14_0).slice (win0_4.rect t)).set
    rw [View.set_slice_whole, Rect.mem_set_unit]
    intro a
    match a with
    | ⟨0, _⟩ => show win0_4.index t (0 : Fin 3) * 1 ≤ (y 0).val ∧ (y 0).val < win0_4.index t (0 : Fin 3) * 1 + 1; omega
    | ⟨1, _⟩ => show win0_4.index t (1 : Fin 3) * 2048 ≤ (y 1).val ∧ (y 1).val < win0_4.index t (1 : Fin 3) * 2048 + 2048; omega
    | ⟨2, _⟩ => show win0_4.index t (2 : Fin 3) * 1 ≤ (y 2).val ∧ (y 2).val < win0_4.index t (2 : Fin 3) * 1 + 1; omega

/-- What any point writes back of the second output is its block of the second array. -/
theorem flushed5_eq (c : Dev nD) (t : Fin cfg0.N) (hf : (cfg0.win 5).flush t = true) :
    (dats m 0 c).flushed 5 t = ((cfg0.win 5).blk t).view.read (Elt Ideal) (nearU m c) := by
  obtain ⟨-, -, -, -, -, ⟨e0, e1, e2⟩⟩ := idx_facts t
  show (cfg0.win 5).cut (grid0.coords t) ((dats m 0 c).after 5 t) = _
  rw [after5]
  funext y
  obtain ⟨p, q, j, rfl⟩ : ∃ (p : Fin 1) (q : Fin 1) (j : Fin 512), y = ix3 p q j := ⟨y 0, y 1, y 2, eq_ix3 y⟩
  obtain rfl : p = 0 := Subsingleton.elim _ _
  obtain rfl : q = 0 := Subsingleton.elim _ _
  rw [View.read_apply]
  have he : ((cfg0.win 5).blk t).view.emb (ix3 (0 : Fin 1) (0 : Fin 1) j) = (ix3 (rowOf t) (0 : Fin 1) (laneOf t j) : S32x1x2048.Idx) := by
    funext a; apply Fin.ext
    match a with
    | ⟨0, _⟩ => show win0_5.index t (0 : Fin 3) * 1 + 1 * 0 = t.val / 4; omega
    | ⟨1, _⟩ => show win0_5.index t (1 : Fin 3) * 1 + 1 * 0 = 0; omega
    | ⟨2, _⟩ => show win0_5.index t (2 : Fin 3) * 512 + 1 * j.val = t.val % 4 * 512 + j.val; omega
  rw [he]
  exact colsAt_apply m c t j

/-- Every entry (b, 0, j) of the second array is in the block of tile j / 512 of row b. -/
theorem final5 (c : Dev nD) : (dats m 0 c).arrAt 5 cfg0.N = nearU m c :=
  (dats m 0 c).arrAt_eq_of_cover 5 (nearU m c) (flushed5_eq m c) fun y => by
    have hN : cfg0.N = 128 := N_0
    have hy0 : (y 0).val < 32 := (y 0).isLt
    have hy1 : (y 1).val < 1 := (y 1).isLt
    have hy2 : (y 2).val < 2048 := (y 2).isLt
    let t : Fin cfg0.N := ⟨4 * (y 0).val + (y 2).val / 512, by omega⟩
    obtain ⟨-, -, -, -, -, ⟨e0, e1, e2⟩⟩ := idx_facts t
    have ht : t.val = 4 * (y 0).val + (y 2).val / 512 := rfl
    refine ⟨t, flush0_5 t, ?_⟩
    show y ∈ ((View.whole main_v14_1).slice (win0_5.rect t)).set
    rw [View.set_slice_whole, Rect.mem_set_unit]
    intro a
    match a with
    | ⟨0, _⟩ => show win0_5.index t (0 : Fin 3) * 1 ≤ (y 0).val ∧ (y 0).val < win0_5.index t (0 : Fin 3) * 1 + 1; omega
    | ⟨1, _⟩ => show win0_5.index t (1 : Fin 3) * 1 ≤ (y 1).val ∧ (y 1).val < win0_5.index t (1 : Fin 3) * 1 + 1; omega
    | ⟨2, _⟩ => show win0_5.index t (2 : Fin 3) * 512 ≤ (y 2).val ∧ (y 2).val < win0_5.index t (2 : Fin 3) * 512 + 512; omega

end Cert.KernelIdeal.Body

end
-- ==== Proof.IdealTail.lean ====
/-
  The host lines after the kernel call, on the extended reals: from the two output arrays — the squared distance
  from each u-point to its nearest v-point, as a [32, 2048, 1] array, and from each v-point to its nearest u-point,
  as a [32, 1, 2048] array — each is flattened to [32, 2048], its square root taken entry by entry, each row summed
  (from zero) and divided by 2048; the two row means are added, halved, summed over the 32 rows (from zero) and
  divided by 32. That is the specification's loss.
-/
import proofs.«181670_j4939212390978_2_alg».proof.Proof.Gen.KernelIdeal
import proofs.«181670_j4939212390978_2_alg».proof.Proof.ClosestPointSpec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

namespace Cert.KernelIdeal.Tail

open Cert.KernelIdeal Cert.KernelIdeal.Gen
open Idealize.ShloMosaic Idealize.ShloMosaic.ValueIdx
open scoped BigOperators

/-- The lines after the call as one function of the two output arrays. -/
def tail (A4 : (⟨S32x2048x1, .f32⟩ : BufTy).Contents (Elt Ideal)) (A5 : (⟨S32x1x2048, .f32⟩ : BufTy).Contents (Elt Ideal)) :
    (⟨S_, .f32⟩ : BufTy).Contents (Elt Ideal) :=
  Host.divf (F := Ideal)
    (Host.reduceAdd (F := Ideal)
      (mulf (broadcastInDim S32 ![] bcast_S_S32 (constant (F := Ideal) S_ .f32 0x3F000000#32))
        (addf
          (Host.divf (F := Ideal)
            (Host.reduceAdd (F := Ideal) (Host.sqrt (F := Ideal) (shapeCast S32x2048 A4 shapeCasts_S32x2048x1_S32x2048))
              (constant (F := Ideal) S_ .f32 0x00000000#32) reducesTo_S32x2048_S32_d1 h_S_)
            (broadcastInDim S32 ![] bcast_S_S32 (constant (F := Ideal) S_ .f32 0x45000000#32)))
          (Host.divf (F := Ideal)
            (Host.reduceAdd (F := Ideal) (Host.sqrt (F := Ideal) (shapeCast S32x2048 A5 shapeCasts_S32x1x2048_S32x2048))
              (constant (F := Ideal) S_ .f32 0x00000000#32) reducesTo_S32x2048_S32_d1 h_S_)
            (broadcastInDim S32 ![] bcast_S_S32 (constant (F := Ideal) S_ .f32 0x45000000#32)))))
      (constant (F := Ideal) S_ .f32 0x00000000#32) reducesTo_S32_S_d0 h_S_)
    (constant (F := Ideal) S_ .f32 0x42000000#32)

/-! ## The operations of the lines after the call, read at an index -/

/-- The host's quotient at an index is the quotient of the entries. -/
theorem hostDivf_apply {s : Shape} (a c : FVec Ideal s .f32) (i : s.Idx) :
    Host.divf (F := Ideal) a c i = Ideal.div (a i) (c i) := rfl

/-- The host's square root at an index is the square root of the entry. -/
theorem hostSqrt_apply {s : Shape} (a : FVec Ideal s .f32) (i : s.Idx) :
    Host.sqrt (F := Ideal) a i = Ideal.sqrt (a i) := rfl

/-- A scalar broadcast to the 32 rows reads the scalar everywhere. -/
theorem bcast_apply (c : FVec Ideal S_ .f32) (j : S32.Idx) : broadcastInDim S32 ![] bcast_S_S32 c j = c ix0 :=
  broadcastInDim_apply _ bcast_S_S32 c j ix0 (fun a => a.elim0)

/-- The first output array flattened, at (b, i): its entry (b, i, 0). -/
theorem flatV_apply (A4 : (⟨S32x2048x1, .f32⟩ : BufTy).Contents (Elt Ideal)) (b : Fin 32) (i : Fin 2048) :
    shapeCast S32x2048 A4 shapeCasts_S32x2048x1_S32x2048 (ix2 b i) = A4 (ix3 b i (0 : Fin 1)) :=
  shapeCast_apply A4 shapeCasts_S32x2048x1_S32x2048 (ix2 b i) (ix3 b i (0 : Fin 1)) (by
    rewrite [Shape.rowMajor_val_three, Shape.rowMajor_val_two]
    show (b.val * 2048 + i.val) * 1 + 0 = b.val * 2048 + i.val
    omega)

/-- The second output array flattened, at (b, j): its entry (b, 0, j). -/
theorem flatU_apply (A5 : (⟨S32x1x2048, .f32⟩ : BufTy).Contents (Elt Ideal)) (b : Fin 32) (j : Fin 2048) :
    shapeCast S32x2048 A5 shapeCasts_S32x1x2048_S32x2048 (ix2 b j) = A5 (ix3 b (0 : Fin 1) j) :=
  shapeCast_apply A5 shapeCasts_S32x1x2048_S32x2048 (ix2 b j) (ix3 b (0 : Fin 1) j) (by
    rewrite [Shape.rowMajor_val_three, Shape.rowMajor_val_two]
    show (b.val * 1 + 0) * 2048 + j.val = b.val * 2048 + j.val
    omega)

/-- A row sum at row `b`: the initial value plus the sum over the 2048 entries of the row. -/
theorem rowSum_apply (y : FVec Ideal S32x2048 .f32) (init : FVec Ideal S_ .f32) (b : Fin 32) :
    Host.reduceAdd (F := Ideal) y init reducesTo_S32x2048_S32_d1 h_S_ (ix1 b)
      = init (Shape.Idx.first h_S_) + ∑ k : Fin 2048, y (ix2 b k) := by
  simp only [Host.reduceAdd, Ideal.hostReduceAdd_def]
  rw [Ideal.hostReduceAdd_single reducesTo_S32x2048_S32_d1 (by decide)]
  refine congrArg (_ + ·) (Finset.sum_congr rfl fun k _ => ?_)
  exact congrArg y (funext fun a => Fin.ext (by match a with | ⟨0, _⟩ => rfl | ⟨1, _⟩ => rfl))

/-- The indices of a 32-entry vector are its 32 coordinates, -/
def rowEquiv : S32.Idx ≃ Fin 32 where
  toFun i := i 0
  invFun b := ix1 b
  left_inv i := (eq_ix1 i).symm
  right_inv _ := rfl

/-- so a sum over them is the sum over the coordinates. -/
theorem sum_rows (f : S32.Idx → EReal) : ∑ i, f i = ∑ b : Fin 32, f (ix1 b) := by
  rw [← Equiv.sum_comp rowEquiv.symm f]
  rfl

/-- The sum over the rows: the initial value plus the sum over the 32 entries. -/
theorem batchSum_apply (y : FVec Ideal S32 .f32) (init : FVec Ideal S_ .f32) (i : S_.Idx) :
    Host.reduceAdd (F := Ideal) y init reducesTo_S32_S_d0 h_S_ i
      = init (Shape.Idx.first h_S_) + ∑ b : Fin 32, y (ix1 b) := by
  simp only [Host.reduceAdd, Ideal.hostReduceAdd_def]
  rw [Ideal.hostReduceAdd_total reducesTo_S32_S_d0 (fun a => a.elim0) y _ i, sum_rows]

/-! ## The lines, stage by stage -/

/-- Row `b`'s mean over the u-points: the sum from the zero word of the square roots of the first output's
    entries, divided by the word of 2048. -/
theorem meanU_tail (u v : Cert.ClosestPoint.Arr) (A4 : (⟨S32x2048x1, .f32⟩ : BufTy).Contents (Elt Ideal))
    (h4 : ∀ (b : Fin 32) (i : Fin 2048), A4 (ix3 b i (0 : Fin 1)) = Cert.ClosestPoint.nearestV u v b i) (b : Fin 32) :
    Host.divf (F := Ideal)
        (Host.reduceAdd (F := Ideal) (Host.sqrt (F := Ideal) (shapeCast S32x2048 A4 shapeCasts_S32x2048x1_S32x2048))
          (constant (F := Ideal) S_ .f32 0x00000000#32) reducesTo_S32x2048_S32_d1 h_S_)
        (broadcastInDim S32 ![] bcast_S_S32 (constant (F := Ideal) S_ .f32 0x45000000#32)) (ix1 b)
      = Cert.ClosestPoint.meanU u v b := by
  rw [hostDivf_apply, rowSum_apply, bcast_apply]
  unfold Cert.ClosestPoint.meanU
  exact congrArg (fun f : Fin 2048 → EReal => Ideal.div (Ideal.ofBits .f32 0x00000000#32 + ∑ k, f k) (Ideal.ofBits .f32 0x45000000#32))
    (funext fun k => by rw [hostSqrt_apply, flatV_apply, h4])

/-- Row `b`'s mean over the v-points, from the second output likewise. -/
theorem meanV_tail (u v : Cert.ClosestPoint.Arr) (A5 : (⟨S32x1x2048, .f32⟩ : BufTy).Contents (Elt Ideal))
    (h5 : ∀ (b : Fin 32) (j : Fin 2048), A5 (ix3 b (0 : Fin 1) j) = Cert.ClosestPoint.nearestU u v b j) (b : Fin 32) :
    Host.divf (F := Ideal)
        (Host.reduceAdd (F := Ideal) (Host.sqrt (F := Ideal) (shapeCast S32x2048 A5 shapeCasts_S32x1x2048_S32x2048))
          (constant (F := Ideal) S_ .f32 0x00000000#32) reducesTo_S32x2048_S32_d1 h_S_)
        (broadcastInDim S32 ![] bcast_S_S32 (constant (F := Ideal) S_ .f32 0x45000000#32)) (ix1 b)
      = Cert.ClosestPoint.meanV u v b := by
  rw [hostDivf_apply, rowSum_apply, bcast_apply]
  unfold Cert.ClosestPoint.meanV
  exact congrArg (fun f : Fin 2048 → EReal => Ideal.div (Ideal.ofBits .f32 0x00000000#32 + ∑ k, f k) (Ideal.ofBits .f32 0x45000000#32))
    (funext fun k => by rw [hostSqrt_apply, flatU_apply, h5])

/-- From output arrays holding the nearest-point minima, the lines after the call compute the loss. -/
theorem tail_loss (u v : Cert.ClosestPoint.Arr)
    (A4 : (⟨S32x2048x1, .f32⟩ : BufTy).Contents (Elt Ideal)) (A5 : (⟨S32x1x2048, .f32⟩ : BufTy).Contents (Elt Ideal))
    (h4 : ∀ (b : Fin 32) (i : Fin 2048), A4 (ix3 b i (0 : Fin 1)) = Cert.ClosestPoint.nearestV u v b i)
    (h5 : ∀ (b : Fin 32) (j : Fin 2048), A5 (ix3 b (0 : Fin 1) j) = Cert.ClosestPoint.nearestU u v b j) :
    tail A4 A5 = fun _ => Cert.ClosestPoint.loss u v := by
  funext i0
  unfold tail
  rw [hostDivf_apply, batchSum_apply]
  unfold Cert.ClosestPoint.loss
  exact congrArg (fun f : Fin 32 → EReal => Ideal.div (Ideal.ofBits .f32 0x00000000#32 + ∑ b, f b) (Ideal.ofBits .f32 0x42000000#32))
    (funext fun b => by
      rw [mulf_apply, addf_apply, meanU_tail u v A4 h4 b, meanV_tail u v A5 h5 b, bcast_apply]
      rfl)

end Cert.KernelIdeal.Tail

end
-- ==== Proof.IdealTailTerm.lean ====
/-
  What the program's run leaves in its result buffer: the host lines after the kernel call, applied to the two
  output arrays as the run leaves them.
-/
import proofs.«181670_j4939212390978_2_alg».proof.Proof.IdealFrame
import proofs.«181670_j4939212390978_2_alg».proof.Proof.IdealTail
import Idealize.ShloMosaic.Lib.StableHlo.Run
import Idealize.ShloMosaic.Lib.Pipeline.FrameSuffix

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- The first output array is the fifth window's: after the run its buffer holds that window's array. -/
theorem out4_after (c : Dev nD) :
    (Pipeline.withArrays (cfgs 0).spec c (V0 m c) (fun w => (dats m 0 c).arrAt w (cfgs 0).N) (Proc.devRef .tc main_v14_0)
        : (⟨S32x2048x1, .f32⟩ : BufTy).Contents (Elt Ideal))
      = (dats m 0 c).arrAt 4 cfg0.N :=
  Pipeline.withArrays_arr spec0 launch0.win.arr_inj c _ _ 4

/-- The second output array is the sixth window's. -/
theorem out5_after (c : Dev nD) :
    (Pipeline.withArrays (cfgs 0).spec c (V0 m c) (fun w => (dats m 0 c).arrAt w (cfgs 0).N) (Proc.devRef .tc main_v14_1)
        : (⟨S32x1x2048, .f32⟩ : BufTy).Contents (Elt Ideal))
      = (dats m 0 c).arrAt 5 cfg0.N :=
  Pipeline.withArrays_arr spec0 launch0.win.arr_inj c _ _ 5

/-- The result buffer after the run: the lines after the call, as one term, of the first output array (the fifth
    window's) and the second (the sixth's) as the run leaves them. -/
theorem afterTail_result (c : Dev nD) :
    Pipeline.afterTail₀ cfgs (dats m) 0 (V0 m) [hostOps1] c main_v29
      = Cert.KernelIdeal.Tail.tail ((dats m 0 c).arrAt 4 cfg0.N) ((dats m 0 c).arrAt 5 cfg0.N) := by
  refine Eq.trans ?_ (congrArg₂ Cert.KernelIdeal.Tail.tail (out4_after m c) (out5_after m c))
  unfold Pipeline.afterTail₀
  show StableHlo.after hostOps1 _ (Proc.devRef .tc main_v29) = _
  after_results
  rfl

end Cert.KernelIdeal.Body

end
-- ==== Proof.IdealValueRun.lean ====
/-
  The idealized kernel's run, read: every weakly fair execution terminates with the result buffer at the loss of
  the two argument arrays and the arguments unchanged. The frame run leaves the two output arrays at the
  nearest-point minima; the host lines after the call turn those into the loss.
-/
import proofs.«181670_j4939212390978_2_alg».proof.Proof.IdealOutputs
import proofs.«181670_j4939212390978_2_alg».proof.Proof.IdealTail
import proofs.«181670_j4939212390978_2_alg».proof.Proof.IdealTailTerm

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.ClosestPoint
open Idealize.ShloMosaic.Pipeline (Dat)

variable (m : (ℓ : Loc nD τ sig) → Buf (Elt Ideal) ℓ) (ρ : Dev nD → PrngReg)

/-- What the lines after the call leave in the result buffer: the loss. -/
theorem result_eq (c : Dev nD) :
    Pipeline.afterTail₀ cfgs (dats m) 0 (V0 m) [hostOps1] c main_v29
      = fun _ => loss (m ((c : Thread nD τ).loc main_arg0)) (m ((c : Thread nD τ).loc main_arg1)) := by
  rw [afterTail_result, final4, final5]
  exact Cert.KernelIdeal.Tail.tail_loss (m ((c : Thread nD τ).loc main_arg0)) (m ((c : Thread nD τ).loc main_arg1)) (nearV m c) (nearU m c)
    (fun b i => rfl) (fun b j => rfl)

/-- The run: the result at the loss, the two arguments as launched. -/
theorem run_loss : θ_run defs (onTc (τ := τ) (main (F := Ideal))) ⟨m, fun _ => 0, ρ⟩ (fun r => ∀ c : Dev nD,
      r.2.mem ((c.tc : Thread nD τ).loc main_v29) = (fun _ => loss (m ((c : Thread nD τ).loc main_arg0)) (m ((c : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v29 (Pipeline.mem_restRefs_of main_v29 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Body

end
-- ==== Proof.ReferenceLoss.lean ====
/-
  The reference program computes the specification: its result, read operation by operation, is the symmetric mean
  point-to-closest-point distance `Cert.ClosestPoint.loss` of its two arguments.

  The reference takes the square root of every squared distance first and the minima after; the specification takes
  the minima of the squared distances and the square root after. The square root being monotone and fixing +∞, the
  two agree (`sqrt_fold_min`). Everything else is reading: the layout chain puts coordinate `k` of point `n` of row
  `b` at entry `k * 2048 + n` of the row, the sum over the two coordinates is the x-term plus the y-term, and each
  mean is the initial value plus a sum, divided by a literal that is never evaluated.
-/
import proofs.«181670_j4939212390978_2_alg».proof.Proof.Gen.ReferenceIdeal.Read
import proofs.«181670_j4939212390978_2_alg».proof.Proof.ClosestPointSpec
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Cert.ClosestPoint
open Idealize.ShloMosaic Idealize.ShloMosaic.ValueIdx
open scoped BigOperators

/-- An argument of the reference: a [32, 4096] array of extended reals. -/
abbrev Arg : Type := (⟨S32x4096, .f32⟩ : BufTy).Contents (Elt Ideal)

/-! ## The layout chain: the coordinates of a point -/

/-- Entry (b, n, 0) of the first argument reshaped to [32, 2, 2048] and transposed to [32, 2048, 2] is entry `n` of
    row `b`: the x-coordinate of point `n`. -/
theorem u_x (x0 : Arg) (b : Fin 32) (n : Fin 2048) :
    val_main_v1 (F := Ideal) x0 (ix3 b n (0 : Fin 2)) = px x0 b n := by
  rw [val_main_v1_apply, val_main_v0_apply]
  unfold px
  refine congrArg x0 (funext fun a => Fin.ext ?_)
  have hb := b.isLt; have hn := n.isLt
  match a with
  | ⟨0, _⟩ => show ((b.val * 2 + 0) * 2048 + n.val) / 4096 = b.val; omega
  | ⟨1, _⟩ => show ((b.val * 2 + 0) * 2048 + n.val) % 4096 = n.val; omega

/-- Entry (b, n, 1) is entry `2048 + n` of row `b`: the y-coordinate of point `n`. -/
theorem u_y (x0 : Arg) (b : Fin 32) (n : Fin 2048) :
    val_main_v1 (F := Ideal) x0 (ix3 b n (1 : Fin 2)) = py x0 b n := by
  rw [val_main_v1_apply, val_main_v0_apply]
  unfold py
  refine congrArg x0 (funext fun a => Fin.ext ?_)
  have hb := b.isLt; have hn := n.isLt
  match a with
  | ⟨0, _⟩ => show ((b.val * 2 + 1) * 2048 + n.val) / 4096 = b.val; omega
  | ⟨1, _⟩ => show ((b.val * 2 + 1) * 2048 + n.val) % 4096 = 2048 + n.val; omega

/-- The same for the second argument: entry (b, n, 0) of its reshaped and transposed array is the x-coordinate, -/
theorem v_x (x1 : Arg) (b : Fin 32) (n : Fin 2048) :
    val_main_v3 (F := Ideal) x1 (ix3 b n (0 : Fin 2)) = px x1 b n := by
  rw [val_main_v3_apply, val_main_v2_apply]
  unfold px
  refine congrArg x1 (funext fun a => Fin.ext ?_)
  have hb := b.isLt; have hn := n.isLt
  match a with
  | ⟨0, _⟩ => show ((b.val * 2 + 0) * 2048 + n.val) / 4096 = b.val; omega
  | ⟨1, _⟩ => show ((b.val * 2 + 0) * 2048 + n.val) % 4096 = n.val; omega

/-- and entry (b, n, 1) the y-coordinate. -/
theorem v_y (x1 : Arg) (b : Fin 32) (n : Fin 2048) :
    val_main_v3 (F := Ideal) x1 (ix3 b n (1 : Fin 2)) = py x1 b n := by
  rw [val_main_v3_apply, val_main_v2_apply]
  unfold py
  refine congrArg x1 (funext fun a => Fin.ext ?_)
  have hb := b.isLt; have hn := n.isLt
  match a with
  | ⟨0, _⟩ => show ((b.val * 2 + 1) * 2048 + n.val) / 4096 = b.val; omega
  | ⟨1, _⟩ => show ((b.val * 2 + 1) * 2048 + n.val) % 4096 = 2048 + n.val; omega

/-! ## The distances -/

/-- The u-points broadcast along the v-axis: entry (b, i, j, k) is coordinate `k` of u-point `i` of row `b`. -/
theorem u_bcast (x0 : Arg) (b : Fin 32) (i j : Fin 2048) (k : Fin 2) :
    val_main_v6 (F := Ideal) x0 (ix4 b i j k) = val_main_v1 (F := Ideal) x0 (ix3 b i k) := by
  rw [val_main_v6_apply, val_main_v4_apply]
  exact congrArg _ (funext fun a => Fin.ext (by match a with | ⟨0, _⟩ => rfl | ⟨1, _⟩ => rfl | ⟨2, _⟩ => rfl))

/-- The v-points broadcast along the u-axis: entry (b, i, j, k) is coordinate `k` of v-point `j` of row `b`. -/
theorem v_bcast (x1 : Arg) (b : Fin 32) (i j : Fin 2048) (k : Fin 2) :
    val_main_v7 (F := Ideal) x1 (ix4 b i j k) = val_main_v3 (F := Ideal) x1 (ix3 b j k) := by
  rw [val_main_v7_apply, val_main_v5_apply]
  exact congrArg _ (funext fun a => Fin.ext (by match a with | ⟨0, _⟩ => rfl | ⟨1, _⟩ => rfl | ⟨2, _⟩ => rfl))

/-- The squared difference at (b, i, j, k): the difference of the two points' coordinate `k`, times itself. -/
theorem sq_apply (x0 x1 : Arg) (b : Fin 32) (i j : Fin 2048) (k : Fin 2) :
    val_main_v9 (F := Ideal) x0 x1 (ix4 b i j k)
      = (val_main_v1 (F := Ideal) x0 (ix3 b i k) - val_main_v3 (F := Ideal) x1 (ix3 b j k))
        * (val_main_v1 (F := Ideal) x0 (ix3 b i k) - val_main_v3 (F := Ideal) x1 (ix3 b j k)) := by
  rw [val_main_v9_apply, val_main_v8_apply, u_bcast, v_bcast]
  rfl

/-- The distance at (b, i, j): the square root of the sum over the two coordinates of the squared differences, which
    is the squared distance of u-point `i` and v-point `j` of row `b` (the sum starts from the zero word). -/
theorem dist_apply (x0 x1 : Arg) (b : Fin 32) (i j : Fin 2048) :
    val_main_v11 (F := Ideal) x0 x1 (ix3 b i j) = Ideal.sqrt (sqDist x0 x1 b i j) := by
  have e : ∀ k : Fin 2, idx_main_v10 (ix3 b i j) k = ix4 b i j k := fun k =>
    funext fun a => Fin.ext (by match a with | ⟨0, _⟩ => rfl | ⟨1, _⟩ => rfl | ⟨2, _⟩ => rfl | ⟨3, _⟩ => rfl)
  rw [val_main_v11_apply, val_main_v10_apply, Fin.sum_univ_two, e 0, e 1, sq_apply, sq_apply, u_x, u_y, v_x, v_y,
    val_main_cst_apply, Ideal.hostUnary_sqrt_def, Ideal.ofBits_def, Ideal.ofBits_zero_f32, zero_add]
  rfl

/-! ## The two minima -/

/-- Row `b`, u-point `i` of the reduced array, with v-point `k` put back on the last axis, is (b, i, k). -/
theorem lift_last (h : S32x2048x2048.Reduces [2] S32x2048) (b : Fin 32) (i : Fin 2048)
    (k : Fin (S32x2048x2048.size 2)) : h.lift (ix2 b i) k = ix3 b i (⟨k.val, k.isLt⟩ : Fin 2048) := by
  funext c; apply Fin.ext
  fin_cases c <;> rfl

/-- Row `b`, v-point `j` of the reduced array, with u-point `k` put back on the middle axis, is (b, k, j). -/
theorem lift_mid (h : S32x2048x2048.Reduces [1] S32x2048) (b : Fin 32) (j : Fin 2048)
    (k : Fin (S32x2048x2048.size 1)) : h.lift (ix2 b j) k = ix3 b (⟨k.val, k.isLt⟩ : Fin 2048) j := by
  funext c; apply Fin.ext
  fin_cases c <;> rfl

/-- The minimum over the last axis, at (b, i): the minimum from the initial value over `j` of the entries (b, i, j). -/
theorem reduce_min_last (y : FVec Ideal S32x2048x2048 .f32) (init : FVec Ideal S_ .f32) (b : Fin 32) (i : Fin 2048) :
    Host.reduce FloatOps.minimumf y init reducesTo_S32x2048x2048_S32x2048_d2 h_S_ (ix2 b i)
      = (Finset.univ : Finset (Fin 2048)).fold min (init (Shape.Idx.first h_S_)) (fun j => y (ix3 b i j)) := by
  rw [Host.reduce_eq_fold_single FloatOps.minimumf y init reducesTo_S32x2048x2048_S32x2048_d2 (by decide) h_S_]
  exact congrArg (fun f => Finset.fold min (init (Shape.Idx.first h_S_)) f (Finset.univ : Finset (Fin 2048)))
    (funext fun k => congrArg y (lift_last _ b i k))

/-- The minimum over the middle axis, at (b, j): the minimum from the initial value over `i` of the entries (b, i, j). -/
theorem reduce_min_mid (y : FVec Ideal S32x2048x2048 .f32) (init : FVec Ideal S_ .f32) (b : Fin 32) (j : Fin 2048) :
    Host.reduce FloatOps.minimumf y init reducesTo_S32x2048x2048_S32x2048_d1 h_S_ (ix2 b j)
      = (Finset.univ : Finset (Fin 2048)).fold min (init (Shape.Idx.first h_S_)) (fun i => y (ix3 b i j)) := by
  rw [Host.reduce_eq_fold_single FloatOps.minimumf y init reducesTo_S32x2048x2048_S32x2048_d1 (by decide) h_S_]
  exact congrArg (fun f => Finset.fold min (init (Shape.Idx.first h_S_)) f (Finset.univ : Finset (Fin 2048)))
    (funext fun k => congrArg y (lift_mid _ b j k))

/-- The least distance from u-point `i` of row `b` to a v-point is the square root of the least squared distance:
    the square root commutes with the minimum from +∞. -/
theorem nearV_apply (x0 x1 : Arg) (b : Fin 32) (i : Fin 2048) :
    val_main_v12 (F := Ideal) x0 x1 (ix2 b i) = Ideal.sqrt (nearestV x0 x1 b i) := by
  unfold val_main_v12 nearestV
  rw [← sqrt_fold_min]
  refine (reduce_min_last _ _ b i).trans ?_
  exact congrArg (fun f => Finset.fold min posInf f (Finset.univ : Finset (Fin 2048)))
    (funext fun j => dist_apply x0 x1 b i j)

/-- The least distance from v-point `j` of row `b` to a u-point is the square root of the least squared distance. -/
theorem nearU_apply (x0 x1 : Arg) (b : Fin 32) (j : Fin 2048) :
    val_main_v16 (F := Ideal) x0 x1 (ix2 b j) = Ideal.sqrt (nearestU x0 x1 b j) := by
  unfold val_main_v16 nearestU
  rw [← sqrt_fold_min]
  refine (reduce_min_mid _ _ b j).trans ?_
  exact congrArg (fun f => Finset.fold min posInf f (Finset.univ : Finset (Fin 2048)))
    (funext fun i => dist_apply x0 x1 b i j)

/-! ## The row means -/

/-- Row `b`'s mean distance from a u-point to its nearest v-point: the sum from the zero word of the least distances,
    divided by the word of 2048. -/
theorem meanU_apply (x0 x1 : Arg) (b : Fin 32) :
    val_main_v15 (F := Ideal) x0 x1 (ix1 b) = meanU x0 x1 b := by
  have e : ∀ k : Fin 2048, idx_main_v13 (ix1 b) k = ix2 b k := fun k =>
    funext fun a => Fin.ext (by match a with | ⟨0, _⟩ => rfl | ⟨1, _⟩ => rfl)
  rw [val_main_v15_apply, val_main_v13_apply, val_main_v14_apply, val_main_cst_1_apply, val_main_cst_2_apply,
    Ideal.hostDivf_def, Ideal.ofBits_def, Ideal.ofBits_def]
  unfold meanU
  exact congrArg (fun f : Fin 2048 → EReal => Ideal.div (Ideal.ofBits .f32 0x00000000#32 + ∑ k, f k) (Ideal.ofBits .f32 0x45000000#32))
    (funext fun k => (congrArg _ (e k)).trans (nearV_apply x0 x1 b k))

/-- Row `b`'s mean distance from a v-point to its nearest u-point, likewise. -/
theorem meanV_apply (x0 x1 : Arg) (b : Fin 32) :
    val_main_v19 (F := Ideal) x0 x1 (ix1 b) = meanV x0 x1 b := by
  have e : ∀ k : Fin 2048, idx_main_v17 (ix1 b) k = ix2 b k := fun k =>
    funext fun a => Fin.ext (by match a with | ⟨0, _⟩ => rfl | ⟨1, _⟩ => rfl)
  rw [val_main_v19_apply, val_main_v17_apply, val_main_v18_apply, val_main_cst_4_apply, val_main_cst_5_apply,
    Ideal.hostDivf_def, Ideal.ofBits_def, Ideal.ofBits_def]
  unfold meanV
  exact congrArg (fun f : Fin 2048 → EReal => Ideal.div (Ideal.ofBits .f32 0x00000000#32 + ∑ k, f k) (Ideal.ofBits .f32 0x45000000#32))
    (funext fun k => (congrArg _ (e k)).trans (nearU_apply x0 x1 b k))

/-! ## The loss -/

/-- Row `b`'s term of the loss: the word of one half times the sum of the two row means. -/
theorem half_apply (x0 x1 : Arg) (b : Fin 32) :
    val_main_v22 (F := Ideal) x0 x1 (ix1 b) = Ideal.ofBits .f32 0x3F000000#32 * (meanU x0 x1 b + meanV x0 x1 b) := by
  rw [val_main_v22_apply, val_main_v21_apply, val_main_cst_6_apply, val_main_v20_apply, meanU_apply, meanV_apply]
  rfl

/-- The indices of a 32-entry vector are its 32 coordinates, -/
def rowEquiv : S32.Idx ≃ Fin 32 where
  toFun i := i 0
  invFun b := ix1 b
  left_inv i := (eq_ix1 i).symm
  right_inv _ := rfl

/-- so a sum over them is the sum over the coordinates. -/
theorem sum_rows (f : S32.Idx → EReal) : ∑ i, f i = ∑ b : Fin 32, f (ix1 b) := by
  rw [← Equiv.sum_comp rowEquiv.symm f]
  rfl

/-- THE REFERENCE'S RESULT is the specification's loss: the sum from the zero word over the 32 rows of half the sum
    of the two row means, divided by the word of 32. -/
theorem reference_loss (x0 x1 : (⟨Cert.ReferenceIdeal.S32x4096, .f32⟩ : BufTy).Contents (Elt Ideal)) :
    Cert.ReferenceIdeal.Read.val_main_v24 (F := Ideal) x0 x1 = fun _ => Cert.ClosestPoint.loss x0 x1 := by
  funext i
  rw [val_main_v24_apply, val_main_v23_apply, val_main_cst_7_apply, val_main_cst_8_apply, sum_rows,
    Ideal.hostDivf_def, Ideal.ofBits_def, Ideal.ofBits_def]
  unfold loss
  exact congrArg (fun f : Fin 32 → EReal => Ideal.div (Ideal.ofBits .f32 0x00000000#32 + ∑ b, f b) (Ideal.ofBits .f32 0x42000000#32))
    (funext fun b => half_apply x0 x1 b)

end Cert.ReferenceIdeal.RefValue

end
-- ==== Proof.lean ====
/- The proof of the certificate's claim: a Pallas kernel computing the symmetric mean point-to-closest-point
   distance of two batches of planar point clouds, against its plain reference.

   The kernel walks a grid of 32 batch rows by 4 tiles of 512 v-points. At each point it forms the block of squared
   distances between the row's 2048 u-points and the tile's v-points, writes the block's column minima (each
   v-point's nearest u-point) to one output, and folds its row minima into a running minimum kept in the other
   output's buffer across the row's four tiles (each u-point's nearest v-point). The square roots, the two row
   means, their half-sum and the batch mean are host lines after the call. The reference takes the square root of
   every pairwise distance first and the minima after.

   The three frames: the kernel's program, at the word level and idealized, runs by the pipeline library's frame
   theorem from a body run once per control case (Proof/BitsFrame.lean, Proof/IdealFrame.lean); the reference's
   frame is its generated run. The idealization rewrote nothing. The value claim: the idealized kernel's result is
   the specification's loss (Proof/ClosestPointSpec.lean) of the argument arrays — the running minimum by induction
   on the grid point, through the universal property of the minimum (Proof/IdealOutputs.lean), then the host lines
   (Proof/IdealTail.lean) — and so is the reference's (Proof/ReferenceLoss.lean); what joins the two sides is that
   the square root on the extended reals is monotone, so it commutes with a minimum. -/
import proofs.«181670_j4939212390978_2_alg».proof.Defs
import proofs.«181670_j4939212390978_2_alg».proof.Proof.Gen.Kernel
import proofs.«181670_j4939212390978_2_alg».proof.Proof.Gen.KernelIdeal
import proofs.«181670_j4939212390978_2_alg».proof.Proof.Gen.ReferenceIdeal
import proofs.«181670_j4939212390978_2_alg».proof.Proof.Gen.Pre_finite_inputs
import proofs.«181670_j4939212390978_2_alg».proof.Proof.Gen.ReferenceIdeal.Run
import proofs.«181670_j4939212390978_2_alg».proof.Proof.Gen.ReferenceIdeal.Read
import proofs.«181670_j4939212390978_2_alg».proof.Proof.BitsFrame
import proofs.«181670_j4939212390978_2_alg».proof.Proof.IdealFrame
import proofs.«181670_j4939212390978_2_alg».proof.Proof.IdealValueRun
import proofs.«181670_j4939212390978_2_alg».proof.Proof.ReferenceLoss
import Idealize.ShloMosaic.Adequacy
import Idealize.ShloMosaic.Init

noncomputable section

namespace Cert.Proof

open Idealize.ShloMosaic Idealize.SL.Sem

/-- The word-level kernel program runs to the end, faults nowhere, and leaves its arguments unchanged. -/
theorem frame_k : Cert.frame_Kernel := fun m ρ _ => Cert.Kernel.Body.frame m ρ
/-- So does its idealization. -/
theorem frame_ki : Cert.frame_KernelIdeal := fun m ρ _ => Cert.KernelIdeal.Body.frame m ρ
/-- And the reference: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- On the extended reals both programs end at the loss of the argument arrays: the kernel by its run read back,
    the reference by its run and the stage-by-stage reading of its term, from memories that agree on the arguments. -/
theorem algebraic : Cert.algebraic_KernelIdeal_ReferenceIdeal := by
  intro m ρ m' ρ' _ hagree
  refine ⟨_, Cert.KernelIdeal.Body.run_loss m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v24_eq _ _).trans (Cert.ReferenceIdeal.RefValue.reference_loss _ _)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
